-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8x2816x1024 : Shape := ⟨3, ![8, 2816, 1024]⟩
abbrev S8x1024x2816 : Shape := ⟨3, ![8, 1024, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x2816x1024 : S_.BroadcastsInDim S8x2816x1024 (![] : Fin 0 → Fin S8x2816x1024.rank)
  reducesTo_S8x2816x1024_S_d0_1_2 : S8x2816x1024.ReducesTo [0, 1, 2] S_
  bcast_S_S8x1024x2816 : S_.BroadcastsInDim S8x1024x2816 (![] : Fin 0 → Fin S8x1024x2816.rank)
  reducesTo_S8x1024x2816_S_d0_1_2 : S8x1024x2816.ReducesTo [0, 1, 2] S_

variable [Facts]

def fn_part1 {F : FTy → Type} [FloatOps F] (main_v13 : IVec S_ 1) (main_v16 : IVec S8x1024x2816 1) : IVec S_ 1 :=
  let main_c_5 : IVec S_ 1 := constantI S_ 1 1#1
  let main_v17 : IVec S_ 1 := (fun x v => Host.reduce IntOp.andi x v reducesTo_S8x1024x2816_S_d0_1_2 h_S_) main_v16 main_c_5
  let main_v18 : IVec S_ 1 := andi main_v13 main_v17
  main_v18

def fn {F : FTy → Type} [FloatOps F] (main_arg0 : FVec F S8192x1024 .f32) (main_arg1 : IVec S8192 32) (main_arg2 : FVec F S8x2816x1024 .f32) (main_arg3 : FVec F S8x2816x1024 .f32) (main_arg4 : FVec F S8x1024x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x2816x1024 .f32 := Host.absf main_arg2
  let main_cst_0 : FVec F S_ .f32 := constant S_ .f32 0x7F800000#32
  let main_v5 : FVec F S8x2816x1024 .f32 := broadcastInDim S8x2816x1024 ![] bcast_S_S8x2816x1024 main_cst_0
  let main_v6 : IVec S8x2816x1024 1 := cmpf .olt main_v4 main_v5
  let main_c_1 : IVec S_ 1 := constantI S_ 1 1#1
  let main_v7 : IVec S_ 1 := (fun x v => Host.reduce IntOp.andi x v reducesTo_S8x2816x1024_S_d0_1_2 h_S_) main_v6 main_c_1
  let main_v8 : IVec S_ 1 := andi main_v3 main_v7
  let main_v9 : FVec F S8x2816x1024 .f32 := Host.absf main_arg3
  let main_cst_2 : FVec F S_ .f32 := constant S_ .f32 0x7F800000#32
  let main_v10 : FVec F S8x2816x1024 .f32 := broadcastInDim S8x2816x1024 ![] bcast_S_S8x2816x1024 main_cst_2
  let main_v11 : IVec S8x2816x1024 1 := cmpf .olt main_v9 main_v10
  let main_c_3 : IVec S_ 1 := constantI S_ 1 1#1
  let main_v12 : IVec S_ 1 := (fun x v => Host.reduce IntOp.andi x v reducesTo_S8x2816x1024_S_d0_1_2 h_S_) main_v11 main_c_3
  let main_v13 : IVec S_ 1 := andi main_v8 main_v12
  let main_v14 : FVec F S8x1024x2816 .f32 := Host.absf main_arg4
  let main_cst_4 : FVec F S_ .f32 := constant S_ .f32 0x7F800000#32
  let main_v15 : FVec F S8x1024x2816 .f32 := broadcastInDim S8x1024x2816 ![] bcast_S_S8x1024x2816 main_cst_4
  let main_v16 : IVec S8x1024x2816 1 := cmpf .olt main_v14 main_v15
  fn_part1 (F := F) main_v13 main_v16
-- ==== Kernel.lean ====
abbrev S8192x1024 : Shape := ⟨2, ![8192, 1024]⟩
abbrev S8192 : Shape := ⟨1, ![8192]⟩
abbrev S8x2816x1024 : Shape := ⟨3, ![8, 2816, 1024]⟩
abbrev S8x1024x2816 : Shape := ⟨3, ![8, 1024, 2816]⟩
abbrev S8192x1 : Shape := ⟨2, ![8192, 1]⟩
abbrev S512x1024 : Shape := ⟨2, ![512, 1024]⟩
abbrev S512x1 : Shape := ⟨2, ![512, 1]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8x2816x1024, .f32⟩
  | .hbm, ⟨3, _⟩ => ⟨S8x2816x1024, .f32⟩
  | .hbm, ⟨4, _⟩ => ⟨S8x1024x2816, .f32⟩
  | .hbm, ⟨5, _⟩ => ⟨S8x2816x1024, .bf16⟩
  | .hbm, ⟨6, _⟩ => ⟨S8x1024x2816, .bf16⟩
  | .hbm, ⟨7, _⟩ => ⟨S8x2816x1024, .bf16⟩
  | .hbm, ⟨8, _⟩ => ⟨S8x1024x2816, .bf16⟩
  | .hbm, ⟨9, _⟩ => ⟨S8x1024x2816, .bf16⟩
  | .hbm, ⟨10, _⟩ => ⟨S8x2816x1024, .bf16⟩
  | .hbm, ⟨11, _⟩ => ⟨S8192x1, .i32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bitsLt_bf16_f32 : FTy.bits .bf16 < FTy.bits .f32
  transposes_S8x2816x1024_S8x1024x2816_0_2_1 : S8x2816x1024.Transposes [0, 2, 1] S8x1024x2816
  transposes_S8x1024x2816_S8x2816x1024_0_2_1 : S8x1024x2816.Transposes [0, 2, 1] S8x2816x1024
  shapeCasts_S8192_S8192x1 : S8192.ShapeCasts S8192x1
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  broadcasts_S512x1_S512x1024 : S512x1.Broadcasts S512x1024
  inb_S1x1024x1408_S1x1024x1408_0_0_0 : ∀ a, (![0, 0, 0] : Fin 3 → Nat) a + S1x1024x1408.size a ≤ S1x1024x1408.size a
  h_S1x1024x1408 : 0 < S1x1024x1408.numel
  shapeCasts_S1x1024x1408_S1024x1408 : S1x1024x1408.ShapeCasts S1024x1408
  inb_S1x1408x1024_S1x1408x1024_0_0_0 : ∀ a, (![0, 0, 0] : Fin 3 → Nat) a + S1x1408x1024.size a ≤ S1x1408x1024.size a
  h_S1x1408x1024 : 0 < S1x1408x1024.numel
  shapeCasts_S1x1408x1024_S1408x1024 : S1x1408x1024.ShapeCasts S1408x1024
  shapeCasts_S512x1024_S512x1024 : S512x1024.ShapeCasts S512x1024
  dot_S512x1024_S1024x1408_S512x1408_1_0_0_1_n_n_wf : DotDims.WF S512x1024 S1024x1408 S512x1408 [1] [0] [0] [1] [] []
  dot_S512x1408_S1408x1024_S512x1024_1_0_0_1_n_n_wf : DotDims.WF S512x1408 S1408x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1408.size a ≤ S8x1024x2816.size a
  hwx0_2 : ∀ i : grid0.Coords, EltTy.bits .bf16 = 32 ∨ (Rect.block (s := S8x1024x2816) S1x1024x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1408.size a ≤ S8x1024x2816.size a
  hwx0_3 : ∀ i : grid0.Coords, EltTy.bits .bf16 = 32 ∨ (Rect.block (s := S8x1024x2816) S1x1024x1408.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1408x1024.size a ≤ S8x2816x1024.size a
  hwx0_4 : ∀ i : grid0.Coords, EltTy.bits .bf16 = 32 ∨ (Rect.block (s := S8x2816x1024) S1x1408x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1408_S512x1408_1_0_0_1_n_n : DotDims S512x1024 S1024x1408 S512x1408 where
  lhsContracting := [1]
  rhsContracting := [0]
  lhsNonContracting := [0]
  rhsNonContracting := [1]
  lhsBatch := []
  rhsBatch := []
  wf := dot_S512x1024_S1024x1408_S512x1408_1_0_0_1_n_n_wf
def dot_S512x1408_S1408x1024_S512x1024_1_0_0_1_n_n : DotDims S512x1408 S1408x1024 S512x1024 where
  lhsContracting := [1]
  rhsContracting := [0]
  lhsNonContracting := [0]
  rhsNonContracting := [1]
  lhsBatch := []
  rhsBatch := []
  wf := dot_S512x1408_S1408x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1408.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1408x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S8x2816x1024 : Shape := ⟨3, ![8, 2816, 1024]⟩
abbrev S8x1024x2816 : Shape := ⟨3, ![8, 1024, 2816]⟩
abbrev S_ : Shape := ⟨0, ![]⟩
abbrev S8192x1 : Shape := ⟨2, ![8192, 1]⟩
abbrev S1x2816x1024 : Shape := ⟨3, ![1, 2816, 1024]⟩
abbrev S2816x1024 : Shape := ⟨2, ![2816, 1024]⟩
abbrev S1024x2816 : Shape := ⟨2, ![1024, 2816]⟩
abbrev S8192x2816 : Shape := ⟨2, ![8192, 2816]⟩
abbrev S1x1024x2816 : Shape := ⟨3, ![1, 1024, 2816]⟩

abbrev nBuf : Space → Nat
  | .hbm => 263
  | .vmem => 0
  | .smem => 0
  | _ => 0

abbrev hbmTy0_0 (i : Nat) : BufTy := match i % 128 with
  | 0 => ⟨S8192x1024, .f32⟩
  | 1 => ⟨S8192, .i32⟩
  | 2 => ⟨S8x2816x1024, .f32⟩
  | 3 => ⟨S8x2816x1024, .f32⟩
  | 4 => ⟨S8x1024x2816, .f32⟩
  | 5 => ⟨S_, .f32⟩
  | 6 => ⟨S8192x1024, .f32⟩
  | 7 => ⟨S_, .i32⟩
  | 8 => ⟨S8192, .i32⟩
  | 9 => ⟨S8192, .i1⟩
  | 10 => ⟨S8192, .f32⟩
  | 11 => ⟨S8192x1, .f32⟩
  | 12 => ⟨S8192x1024, .f32⟩
  | 13 => ⟨S8192x1024, .f32⟩
  | 14 => ⟨S1x2816x1024, .f32⟩
  | 15 => ⟨S2816x1024, .f32⟩
  | 16 => ⟨S1024x2816, .f32⟩
  | 17 => ⟨S8192x2816, .f32⟩
  | 18 => ⟨S8192x2816, .f32⟩
  | 19 => ⟨S8192x2816, .f32⟩
  | 20 => ⟨S_, .f32⟩
  | 21 => ⟨S8192x2816, .f32⟩
  | 22 => ⟨S8192x2816, .f32⟩
  | 23 => ⟨S_, .f32⟩
  | 24 => ⟨S8192x2816, .f32⟩
  | 25 => ⟨S8192x2816, .f32⟩
  | 26 => ⟨S8192x2816, .f32⟩
  | 27 => ⟨S1x2816x1024, .f32⟩
  | 28 => ⟨S2816x1024, .f32⟩
  | 29 => ⟨S1024x2816, .f32⟩
  | 30 => ⟨S8192x2816, .f32⟩
  | 31 => ⟨S8192x2816, .f32⟩
  | 32 => ⟨S1x1024x2816, .f32⟩
  | 33 => ⟨S1024x2816, .f32⟩
  | 34 => ⟨S2816x1024, .f32⟩
  | 35 => ⟨S8192x1024, .f32⟩
  | 36 => ⟨S8192x1024, .f32⟩
  | 37 => ⟨S8192x1024, .f32⟩
  | 38 => ⟨S8192x1024, .f32⟩
  | 39 => ⟨S_, .i32⟩
  | 40 => ⟨S8192, .i32⟩
  | 41 => ⟨S8192, .i1⟩
  | 42 => ⟨S8192, .f32⟩
  | 43 => ⟨S8192x1, .f32⟩
  | 44 => ⟨S8192x1024, .f32⟩
  | 45 => ⟨S8192x1024, .f32⟩
  | 46 => ⟨S1x2816x1024, .f32⟩
  | 47 => ⟨S2816x1024, .f32⟩
  | 48 => ⟨S1024x2816, .f32⟩
  | 49 => ⟨S8192x2816, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S8192x2816, .f32⟩
  | 59 => ⟨S1x2816x1024, .f32⟩
  | 60 => ⟨S2816x1024, .f32⟩
  | 61 => ⟨S1024x2816, .f32⟩
  | 62 => ⟨S8192x2816, .f32⟩
  | 63 => ⟨S8192x2816, .f32⟩
  | 64 => ⟨S1x1024x2816, .f32⟩
  | 65 => ⟨S1024x2816, .f32⟩
  | 66 => ⟨S2816x1024, .f32⟩
  | 67 => ⟨S8192x1024, .f32⟩
  | 68 => ⟨S8192x1024, .f32⟩
  | 69 => ⟨S8192x1024, .f32⟩
  | 70 => ⟨S8192x1024, .f32⟩
  | 71 => ⟨S_, .i32⟩
  | 72 => ⟨S8192, .i32⟩
  | 73 => ⟨S8192, .i1⟩
  | 74 => ⟨S8192, .f32⟩
  | 75 => ⟨S8192x1, .f32⟩
  | 76 => ⟨S8192x1024, .f32⟩
  | 77 => ⟨S8192x1024, .f32⟩
  | 78 => ⟨S1x2816x1024, .f32⟩
  | 79 => ⟨S2816x1024, .f32⟩
  | 80 => ⟨S1024x2816, .f32⟩
  | 81 => ⟨S8192x2816, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S_, .f32⟩
  | 88 => ⟨S8192x2816, .f32⟩
  | 89 => ⟨S8192x2816, .f32⟩
  | 90 => ⟨S8192x2816, .f32⟩
  | 91 => ⟨S1x2816x1024, .f32⟩
  | 92 => ⟨S2816x1024, .f32⟩
  | 93 => ⟨S1024x2816, .f32⟩
  | 94 => ⟨S8192x2816, .f32⟩
  | 95 => ⟨S8192x2816, .f32⟩
  | 96 => ⟨S1x1024x2816, .f32⟩
  | 97 => ⟨S1024x2816, .f32⟩
  | 98 => ⟨S2816x1024, .f32⟩
  | 99 => ⟨S8192x1024, .f32⟩
  | 100 => ⟨S8192x1024, .f32⟩
  | 101 => ⟨S8192x1024, .f32⟩
  | 102 => ⟨S8192x1024, .f32⟩
  | 103 => ⟨S_, .i32⟩
  | 104 => ⟨S8192, .i32⟩
  | 105 => ⟨S8192, .i1⟩
  | 106 => ⟨S8192, .f32⟩
  | 107 => ⟨S8192x1, .f32⟩
  | 108 => ⟨S8192x1024, .f32⟩
  | 109 => ⟨S8192x1024, .f32⟩
  | 110 => ⟨S1x2816x1024, .f32⟩
  | 111 => ⟨S2816x1024, .f32⟩
  | 112 => ⟨S1024x2816, .f32⟩
  | 113 => ⟨S8192x2816, .f32⟩
  | 114 => ⟨S8192x2816, .f32⟩
  | 115 => ⟨S8192x2816, .f32⟩
  | 116 => ⟨S_, .f32⟩
  | 117 => ⟨S8192x2816, .f32⟩
  | 118 => ⟨S8192x2816, .f32⟩
  | 119 => ⟨S_, .f32⟩
  | 120 => ⟨S8192x2816, .f32⟩
  | 121 => ⟨S8192x2816, .f32⟩
  | 122 => ⟨S8192x2816, .f32⟩
  | 123 => ⟨S1x2816x1024, .f32⟩
  | 124 => ⟨S2816x1024, .f32⟩
  | 125 => ⟨S1024x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S1x1024x2816, .f32⟩
  | 1 => ⟨S1024x2816, .f32⟩
  | 2 => ⟨S2816x1024, .f32⟩
  | 3 => ⟨S8192x1024, .f32⟩
  | 4 => ⟨S8192x1024, .f32⟩
  | 5 => ⟨S8192x1024, .f32⟩
  | 6 => ⟨S8192x1024, .f32⟩
  | 7 => ⟨S_, .i32⟩
  | 8 => ⟨S8192, .i32⟩
  | 9 => ⟨S8192, .i1⟩
  | 10 => ⟨S8192, .f32⟩
  | 11 => ⟨S8192x1, .f32⟩
  | 12 => ⟨S8192x1024, .f32⟩
  | 13 => ⟨S8192x1024, .f32⟩
  | 14 => ⟨S1x2816x1024, .f32⟩
  | 15 => ⟨S2816x1024, .f32⟩
  | 16 => ⟨S1024x2816, .f32⟩
  | 17 => ⟨S8192x2816, .f32⟩
  | 18 => ⟨S8192x2816, .f32⟩
  | 19 => ⟨S8192x2816, .f32⟩
  | 20 => ⟨S_, .f32⟩
  | 21 => ⟨S8192x2816, .f32⟩
  | 22 => ⟨S8192x2816, .f32⟩
  | 23 => ⟨S_, .f32⟩
  | 24 => ⟨S8192x2816, .f32⟩
  | 25 => ⟨S8192x2816, .f32⟩
  | 26 => ⟨S8192x2816, .f32⟩
  | 27 => ⟨S1x2816x1024, .f32⟩
  | 28 => ⟨S2816x1024, .f32⟩
  | 29 => ⟨S1024x2816, .f32⟩
  | 30 => ⟨S8192x2816, .f32⟩
  | 31 => ⟨S8192x2816, .f32⟩
  | 32 => ⟨S1x1024x2816, .f32⟩
  | 33 => ⟨S1024x2816, .f32⟩
  | 34 => ⟨S2816x1024, .f32⟩
  | 35 => ⟨S8192x1024, .f32⟩
  | 36 => ⟨S8192x1024, .f32⟩
  | 37 => ⟨S8192x1024, .f32⟩
  | 38 => ⟨S8192x1024, .f32⟩
  | 39 => ⟨S_, .i32⟩
  | 40 => ⟨S8192, .i32⟩
  | 41 => ⟨S8192, .i1⟩
  | 42 => ⟨S8192, .f32⟩
  | 43 => ⟨S8192x1, .f32⟩
  | 44 => ⟨S8192x1024, .f32⟩
  | 45 => ⟨S8192x1024, .f32⟩
  | 46 => ⟨S1x2816x1024, .f32⟩
  | 47 => ⟨S2816x1024, .f32⟩
  | 48 => ⟨S1024x2816, .f32⟩
  | 49 => ⟨S8192x2816, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S8192x2816, .f32⟩
  | 59 => ⟨S1x2816x1024, .f32⟩
  | 60 => ⟨S2816x1024, .f32⟩
  | 61 => ⟨S1024x2816, .f32⟩
  | 62 => ⟨S8192x2816, .f32⟩
  | 63 => ⟨S8192x2816, .f32⟩
  | 64 => ⟨S1x1024x2816, .f32⟩
  | 65 => ⟨S1024x2816, .f32⟩
  | 66 => ⟨S2816x1024, .f32⟩
  | 67 => ⟨S8192x1024, .f32⟩
  | 68 => ⟨S8192x1024, .f32⟩
  | 69 => ⟨S8192x1024, .f32⟩
  | 70 => ⟨S8192x1024, .f32⟩
  | 71 => ⟨S_, .i32⟩
  | 72 => ⟨S8192, .i32⟩
  | 73 => ⟨S8192, .i1⟩
  | 74 => ⟨S8192, .f32⟩
  | 75 => ⟨S8192x1, .f32⟩
  | 76 => ⟨S8192x1024, .f32⟩
  | 77 => ⟨S8192x1024, .f32⟩
  | 78 => ⟨S1x2816x1024, .f32⟩
  | 79 => ⟨S2816x1024, .f32⟩
  | 80 => ⟨S1024x2816, .f32⟩
  | 81 => ⟨S8192x2816, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S_, .f32⟩
  | 88 => ⟨S8192x2816, .f32⟩
  | 89 => ⟨S8192x2816, .f32⟩
  | 90 => ⟨S8192x2816, .f32⟩
  | 91 => ⟨S1x2816x1024, .f32⟩
  | 92 => ⟨S2816x1024, .f32⟩
  | 93 => ⟨S1024x2816, .f32⟩
  | 94 => ⟨S8192x2816, .f32⟩
  | 95 => ⟨S8192x2816, .f32⟩
  | 96 => ⟨S1x1024x2816, .f32⟩
  | 97 => ⟨S1024x2816, .f32⟩
  | 98 => ⟨S2816x1024, .f32⟩
  | 99 => ⟨S8192x1024, .f32⟩
  | 100 => ⟨S8192x1024, .f32⟩
  | 101 => ⟨S8192x1024, .f32⟩
  | 102 => ⟨S8192x1024, .f32⟩
  | 103 => ⟨S_, .i32⟩
  | 104 => ⟨S8192, .i32⟩
  | 105 => ⟨S8192, .i1⟩
  | 106 => ⟨S8192, .f32⟩
  | 107 => ⟨S8192x1, .f32⟩
  | 108 => ⟨S8192x1024, .f32⟩
  | 109 => ⟨S8192x1024, .f32⟩
  | 110 => ⟨S1x2816x1024, .f32⟩
  | 111 => ⟨S2816x1024, .f32⟩
  | 112 => ⟨S1024x2816, .f32⟩
  | 113 => ⟨S8192x2816, .f32⟩
  | 114 => ⟨S8192x2816, .f32⟩
  | 115 => ⟨S8192x2816, .f32⟩
  | 116 => ⟨S_, .f32⟩
  | 117 => ⟨S8192x2816, .f32⟩
  | 118 => ⟨S8192x2816, .f32⟩
  | 119 => ⟨S_, .f32⟩
  | 120 => ⟨S8192x2816, .f32⟩
  | 121 => ⟨S8192x2816, .f32⟩
  | 122 => ⟨S8192x2816, .f32⟩
  | 123 => ⟨S1x2816x1024, .f32⟩
  | 124 => ⟨S2816x1024, .f32⟩
  | 125 => ⟨S1024x2816, .f32⟩
  | 126 => ⟨S8192x2816, .f32⟩
  | 127 => ⟨S8192x2816, .f32⟩
  | _ => ⟨S8192x1024, .f32⟩

abbrev hbmTy0_2 (i : Nat) : BufTy := match i % 128 with
  | 0 => ⟨S1x1024x2816, .f32⟩
  | 1 => ⟨S1024x2816, .f32⟩
  | 2 => ⟨S2816x1024, .f32⟩
  | 3 => ⟨S8192x1024, .f32⟩
  | 4 => ⟨S8192x1024, .f32⟩
  | 5 => ⟨S8192x1024, .f32⟩
  | 6 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_2 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call3_v0 : Ref sig .tc := ⟨.hbm, 114, rfl⟩
abbrev main_call3_v1 : Ref sig .tc := ⟨.hbm, 115, rfl⟩
abbrev main_call3_cst : Ref sig .tc := ⟨.hbm, 116, rfl⟩
abbrev main_call3_v2 : Ref sig .tc := ⟨.hbm, 117, rfl⟩
abbrev main_call3_v3 : Ref sig .tc := ⟨.hbm, 118, rfl⟩
abbrev main_call3_cst_0 : Ref sig .tc := ⟨.hbm, 119, rfl⟩
abbrev main_call3_v4 : Ref sig .tc := ⟨.hbm, 120, rfl⟩
abbrev main_call3_v5 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_3 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_4 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_call5_v0 : Ref sig .tc := ⟨.hbm, 178, rfl⟩
abbrev main_call5_v1 : Ref sig .tc := ⟨.hbm, 179, rfl⟩
abbrev main_call5_cst : Ref sig .tc := ⟨.hbm, 180, rfl⟩
abbrev main_call5_v2 : Ref sig .tc := ⟨.hbm, 181, rfl⟩
abbrev main_call5_v3 : Ref sig .tc := ⟨.hbm, 182, rfl⟩
abbrev main_call5_cst_0 : Ref sig .tc := ⟨.hbm, 183, rfl⟩
abbrev main_call5_v4 : Ref sig .tc := ⟨.hbm, 184, rfl⟩
abbrev main_call5_v5 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_c_5 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_call6_v0 : Ref sig .tc := ⟨.hbm, 210, rfl⟩
abbrev main_call6_v1 : Ref sig .tc := ⟨.hbm, 211, rfl⟩
abbrev main_call6_cst : Ref sig .tc := ⟨.hbm, 212, rfl⟩
abbrev main_call6_v2 : Ref sig .tc := ⟨.hbm, 213, rfl⟩
abbrev main_call6_v3 : Ref sig .tc := ⟨.hbm, 214, rfl⟩
abbrev main_call6_cst_0 : Ref sig .tc := ⟨.hbm, 215, rfl⟩
abbrev main_call6_v4 : Ref sig .tc := ⟨.hbm, 216, rfl⟩
abbrev main_call6_v5 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_c_6 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_call7_v0 : Ref sig .tc := ⟨.hbm, 242, rfl⟩
abbrev main_call7_v1 : Ref sig .tc := ⟨.hbm, 243, rfl⟩
abbrev main_call7_cst : Ref sig .tc := ⟨.hbm, 244, rfl⟩
abbrev main_call7_v2 : Ref sig .tc := ⟨.hbm, 245, rfl⟩
abbrev main_call7_v3 : Ref sig .tc := ⟨.hbm, 246, rfl⟩
abbrev main_call7_cst_0 : Ref sig .tc := ⟨.hbm, 247, rfl⟩
abbrev main_call7_v4 : Ref sig .tc := ⟨.hbm, 248, rfl⟩
abbrev main_call7_v5 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x2816x1024_S1x2816x1024_0_0_0 : S8x2816x1024.Slices ![0, 0, 0] S1x2816x1024
  shapeCasts_S1x2816x1024_S2816x1024 : S1x2816x1024.ShapeCasts S2816x1024
  transposes_S2816x1024_S1024x2816_1_0 : S2816x1024.Transposes [1, 0] S1024x2816
  bcast_S_S8192x2816 : S_.BroadcastsInDim S8192x2816 (![] : Fin 0 → Fin S8192x2816.rank)
  slices_S8x1024x2816_S1x1024x2816_0_0_0 : S8x1024x2816.Slices ![0, 0, 0] S1x1024x2816
  shapeCasts_S1x1024x2816_S1024x2816 : S1x1024x2816.ShapeCasts S1024x2816
  transposes_S1024x2816_S2816x1024_1_0 : S1024x2816.Transposes [1, 0] S2816x1024
  slices_S8x2816x1024_S1x2816x1024_1_0_0 : S8x2816x1024.Slices ![1, 0, 0] S1x2816x1024
  slices_S8x1024x2816_S1x1024x2816_1_0_0 : S8x1024x2816.Slices ![1, 0, 0] S1x1024x2816
  slices_S8x2816x1024_S1x2816x1024_2_0_0 : S8x2816x1024.Slices ![2, 0, 0] S1x2816x1024
  slices_S8x1024x2816_S1x1024x2816_2_0_0 : S8x1024x2816.Slices ![2, 0, 0] S1x1024x2816
  slices_S8x2816x1024_S1x2816x1024_3_0_0 : S8x2816x1024.Slices ![3, 0, 0] S1x2816x1024
  slices_S8x1024x2816_S1x1024x2816_3_0_0 : S8x1024x2816.Slices ![3, 0, 0] S1x1024x2816
  slices_S8x2816x1024_S1x2816x1024_4_0_0 : S8x2816x1024.Slices ![4, 0, 0] S1x2816x1024
  slices_S8x1024x2816_S1x1024x2816_4_0_0 : S8x1024x2816.Slices ![4, 0, 0] S1x1024x2816
  slices_S8x2816x1024_S1x2816x1024_5_0_0 : S8x2816x1024.Slices ![5, 0, 0] S1x2816x1024
  slices_S8x1024x2816_S1x1024x2816_5_0_0 : S8x1024x2816.Slices ![5, 0, 0] S1x1024x2816
  slices_S8x2816x1024_S1x2816x1024_6_0_0 : S8x2816x1024.Slices ![6, 0, 0] S1x2816x1024
  slices_S8x1024x2816_S1x1024x2816_6_0_0 : S8x1024x2816.Slices ![6, 0, 0] S1x1024x2816
  slices_S8x2816x1024_S1x2816x1024_7_0_0 : S8x2816x1024.Slices ![7, 0, 0] S1x2816x1024
  slices_S8x1024x2816_S1x1024x2816_7_0_0 : S8x1024x2816.Slices ![7, 0, 0] S1x1024x2816
  dot_S8192x1024_S1024x2816_S8192x2816_1_0_0_1_n_n_wf : DotDims.WF S8192x1024 S1024x2816 S8192x2816 [1] [0] [0] [1] [] []
  dot_S8192x2816_S2816x1024_S8192x1024_1_0_0_1_n_n_wf : DotDims.WF S8192x2816 S2816x1024 S8192x1024 [1] [0] [0] [1] [] []

variable [Facts₀]

def dot_S8192x1024_S1024x2816_S8192x2816_1_0_0_1_n_n : DotDims S8192x1024 S1024x2816 S8192x2816 where
  lhsContracting := [1]
  rhsContracting := [0]
  lhsNonContracting := [0]
  rhsNonContracting := [1]
  lhsBatch := []
  rhsBatch := []
  wf := dot_S8192x1024_S1024x2816_S8192x2816_1_0_0_1_n_n_wf
def dot_S8192x2816_S2816x1024_S8192x1024_1_0_0_1_n_n : DotDims S8192x2816 S2816x1024 S8192x1024 where
  lhsContracting := [1]
  rhsContracting := [0]
  lhsNonContracting := [0]
  rhsNonContracting := [1]
  lhsBatch := []
  rhsBatch := []
  wf := dot_S8192x2816_S2816x1024_S8192x1024_1_0_0_1_n_n_wf

class Facts : Prop extends Facts₀ where

variable [Facts]
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.MoeSpec.lean ====
/-
  A masked mixture of experts, as ONE function of its five arguments over the extended reals.

  There are 8192 tokens of width 1024, a word per token naming its expert, and 8 experts, each a gated two-layer
  perceptron with hidden width 2816: for expert `e` the token's row is first multiplied by the routing weight
  `[idx t = e]` (one or zero), the hidden value is `silu (row · Wg e i) · (row · Wu e i)` with `silu g = g · logistic g`,
  the expert's output is `∑ i, hidden i · Wd e h i`, again multiplied by the routing weight, and the layer's result is the
  sum of the eight outputs.

  Two arrangements of that sum are compared here.  One adds the eight experts' outputs in turn.  The other cuts the
  hidden axis into two tiles of 1408 and adds sixteen addends, point `s` being tile `s % 2` of expert `s / 2`, each already
  multiplied by the routing weight.  They agree because a sum over 2816 positions is the sum of its two tiles' sums and
  because `(a + b) · w = a · w + b · w` when `w` is one or zero — on every extended real, no finiteness needed.
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

namespace Cert.Moe

open Idealize.ShloMosaic Idealize.ShloMosaic.ValueIdx
open scoped BigOperators

/-! ## The routing weight -/

/-- The routing weight of a token whose expert word is `w`, for the expert whose word is `e`: one if they are the same
    word, zero otherwise. -/
def onExpert (w e : BitVec 32) : EReal := if w = e then 1 else 0

/-- Multiplying by a routing weight distributes over a sum of ANY two extended reals: the weight is one or zero. -/
theorem add_mul_onExpert (a b : EReal) (w e : BitVec 32) :
    (a + b) * onExpert w e = a * onExpert w e + b * onExpert w e := by
  unfold onExpert
  split
  · simp only [mul_one]
  · simp only [mul_zero, add_zero]

/-- The comparison's one-bit result read as an unsigned integer is the routing weight. -/
theorem uitofp_cmpi_eq (w e : BitVec 32) :
    FloatOps.uitofp (F := Ideal) .f32 (IntOp.cmpi .eq w e) = onExpert w e := by
  show (((IntOp.cmpi .eq w e).toNat : ℝ) : EReal) = _
  unfold onExpert IntOp.cmpi
  by_cases h : w = e
  · rw [if_pos h]; subst h; simp
  · rw [if_neg h]
    have : (w == e) = false := by simpa using h
    simp [this]

/-- The comparison's one-bit result widened to 32 bits with zeros and read as a signed integer is the routing weight. -/
theorem sitofp_extui_cmpi_eq (w e : BitVec 32) :
    FloatOps.sitofp (F := Ideal) .f32 ((IntOp.cmpi .eq w e).setWidth 32) = onExpert w e := by
  show (((((IntOp.cmpi .eq w e).setWidth 32).toInt : ℤ) : ℝ) : EReal) = _
  unfold onExpert IntOp.cmpi
  by_cases h : w = e
  · rw [if_pos h]; subst h
    have : (BitVec.setWidth 32 (BitVec.ofBool (w == w))).toInt = 1 := by simp
    rw [this]; simp
  · rw [if_neg h]
    have hb : (w == e) = false := by simpa using h
    have : (BitVec.setWidth 32 (BitVec.ofBool (w == e))).toInt = 0 := by rw [hb]; decide
    rw [this]; simp

/-! ## The layer -/

/-- Tokens: 8192 rows of width 1024. -/
abbrev Tokens := (⟨2, ![8192, 1024]⟩ : Shape).Idx → EReal
/-- One expert word per token. -/
abbrev Words := (⟨1, ![8192]⟩ : Shape).Idx → BitVec 32
/-- The gate and up weights: per expert a 2816 × 1024 matrix. -/
abbrev InW := (⟨3, ![8, 2816, 1024]⟩ : Shape).Idx → EReal
/-- The down weights: per expert a 1024 × 2816 matrix. -/
abbrev OutW := (⟨3, ![8, 1024, 2816]⟩ : Shape).Idx → EReal

/-- Expert `e`'s word. -/
abbrev word (e : Fin 8) : BitVec 32 := BitVec.ofNat 32 e.val

/-- Token `t`'s routing weight for expert `e`. -/
def weight (idx : Words) (e : Fin 8) (t : Fin 8192) : EReal := onExpert (idx (ix1 t)) (word e)

/-- Token `t`'s row with the routing weight applied. -/
def row (x : Tokens) (idx : Words) (e : Fin 8) (t : Fin 8192) (k : Fin 1024) : EReal := x (ix2 t k) * weight idx e t

/-- The weighted row against row `i` of expert `e`'s matrix `W`. -/
def proj (x : Tokens) (idx : Words) (W : InW) (e : Fin 8) (t : Fin 8192) (i : Fin 2816) : EReal :=
  ∑ k : Fin 1024, row x idx e t k * W (ix3 e i k)

/-- The hidden value: `silu (gate) · up`. -/
def hidden (x : Tokens) (idx : Words) (Wg Wu : InW) (e : Fin 8) (t : Fin 8192) (i : Fin 2816) : EReal :=
  (proj x idx Wg e t i * Ideal.logistic (proj x idx Wg e t i)) * proj x idx Wu e t i

/-- Expert `e`'s weighted output at `(t, h)`. -/
def expertOut (x : Tokens) (idx : Words) (Wg Wu : InW) (Wd : OutW) (e : Fin 8) (t : Fin 8192) (h : Fin 1024) : EReal :=
  (∑ i : Fin 2816, hidden x idx Wg Wu e t i * Wd (ix3 e h i)) * weight idx e t

/-- Position `r` of hidden tile `ii` (two tiles of 1408). -/
def tilePos (ii : Fin 2) (r : Fin 1408) : Fin 2816 := ⟨1408 * ii.val + r.val, by have := ii.isLt; have := r.isLt; omega⟩

/-- Tile `ii` of expert `e`'s weighted output at `(t, h)`: the hidden axis summed over that tile only. -/
def tilePart (x : Tokens) (idx : Words) (Wg Wu : InW) (Wd : OutW) (e : Fin 8) (ii : Fin 2) (t : Fin 8192) (h : Fin 1024) : EReal :=
  (∑ r : Fin 1408, hidden x idx Wg Wu e t (tilePos ii r) * Wd (ix3 e h (tilePos ii r))) * weight idx e t

/-- A sum over the 2816 hidden positions is the sum over tile 0 plus the sum over tile 1. -/
theorem sum_tiles (f : Fin 2816 → EReal) :
    ∑ i : Fin 2816, f i = (∑ r : Fin 1408, f (tilePos 0 r)) + ∑ r : Fin 1408, f (tilePos 1 r) := by
  have h := Fin.sum_univ_add (a := 1408) (b := 1408) (f := f)
  refine h.trans ?_
  refine congrArg₂ (· + ·) (Finset.sum_congr rfl fun r _ => congrArg f (Fin.ext ?_)) (Finset.sum_congr rfl fun r _ => congrArg f (Fin.ext ?_))
  · show r.val = 1408 * 0 + r.val; omega
  · show 1408 + r.val = 1408 * 1 + r.val; omega

/-- An expert's two tiles add up to its output. -/
theorem tileParts_add (x : Tokens) (idx : Words) (Wg Wu : InW) (Wd : OutW) (e : Fin 8) (t : Fin 8192) (h : Fin 1024) :
    tilePart x idx Wg Wu Wd e 0 t h + tilePart x idx Wg Wu Wd e 1 t h = expertOut x idx Wg Wu Wd e t h := by
  unfold tilePart expertOut weight
  rw [← add_mul_onExpert, ← sum_tiles (fun i => hidden x idx Wg Wu e t i * Wd (ix3 e h i))]

/-! ## The two arrangements of the sum -/

/-- Expert number `e`'s output, zero past the eighth. -/
def outOf (x : Tokens) (idx : Words) (Wg Wu : InW) (Wd : OutW) (t : Fin 8192) (h : Fin 1024) (e : ℕ) : EReal :=
  if he : e < 8 then expertOut x idx Wg Wu Wd ⟨e, he⟩ t h else 0

/-- Addend number `s` of the sixteen: tile `s % 2` of expert `s / 2`, zero past the sixteenth. -/
def addend (x : Tokens) (idx : Words) (Wg Wu : InW) (Wd : OutW) (t : Fin 8192) (h : Fin 1024) (s : ℕ) : EReal :=
  if hs : s < 16 then tilePart x idx Wg Wu Wd ⟨s / 2, by omega⟩ ⟨s % 2, Nat.mod_lt _ (by decide)⟩ t h else 0

/-- THE LAYER at `(t, h)`: the eight experts' weighted outputs added in turn. -/
def layer (x : Tokens) (idx : Words) (Wg Wu : InW) (Wd : OutW) (t : Fin 8192) (h : Fin 1024) : EReal :=
  ∑ e ∈ Finset.range 8, outOf x idx Wg Wu Wd t h e

/-- A sum over `2n` consecutive naturals taken two by two. -/
theorem sum_range_pairs (f : ℕ → EReal) (n : ℕ) :
    ∑ s ∈ Finset.range (2 * n), f s = ∑ e ∈ Finset.range n, (f (2 * e) + f (2 * e + 1)) := by
  induction n with
  | zero => simp
  | succ n ih =>
    rw [show 2 * (n + 1) = 2 * n + 1 + 1 from by ring, Finset.sum_range_succ, Finset.sum_range_succ, ih,
      Finset.sum_range_succ, add_assoc]

/-- Addends `2e` and `2e + 1` are expert `e`'s two tiles. -/
theorem addend_pair (x : Tokens) (idx : Words) (Wg Wu : InW) (Wd : OutW) (t : Fin 8192) (h : Fin 1024) (e : ℕ) (he : e < 8) :
    addend x idx Wg Wu Wd t h (2 * e) + addend x idx Wg Wu Wd t h (2 * e + 1) = outOf x idx Wg Wu Wd t h e := by
  unfold addend outOf
  rw [dif_pos (show 2 * e < 16 by omega), dif_pos (show 2 * e + 1 < 16 by omega), dif_pos he]
  have e0 : (⟨2 * e / 2, by omega⟩ : Fin 8) = ⟨e, he⟩ := Fin.ext (by show 2 * e / 2 = e; omega)
  have e1 : (⟨(2 * e + 1) / 2, by omega⟩ : Fin 8) = ⟨e, he⟩ := Fin.ext (by show (2 * e + 1) / 2 = e; omega)
  have i0 : (⟨2 * e % 2, Nat.mod_lt _ (by decide)⟩ : Fin 2) = 0 := Fin.ext (by show 2 * e % 2 = 0; omega)
  have i1 : (⟨(2 * e + 1) % 2, Nat.mod_lt _ (by decide)⟩ : Fin 2) = 1 := Fin.ext (by show (2 * e + 1) % 2 = 1; omega)
  rw [e0, e1, i0, i1]
  exact tileParts_add x idx Wg Wu Wd ⟨e, he⟩ t h

/-- THE SIXTEEN ADDENDS SUM TO THE LAYER. -/
theorem sum_addends (x : Tokens) (idx : Words) (Wg Wu : InW) (Wd : OutW) (t : Fin 8192) (h : Fin 1024) :
    ∑ s ∈ Finset.range 16, addend x idx Wg Wu Wd t h s = layer x idx Wg Wu Wd t h := by
  unfold layer
  rw [show (16 : ℕ) = 2 * 8 from rfl, sum_range_pairs]
  exact Finset.sum_congr rfl fun e he => addend_pair x idx Wg Wu Wd t h e (Finset.mem_range.mp he)

end Cert.Moe

end
-- ==== Proof.KPoint.lean ====
/-
  What one grid point adds to an entry of its output block.

  A point holds a block of 512 token rows (`v11`), their expert words (`v5`, a column), a 1024 × 1408 tile of the
  gate weights and of the up weights (`v15`, `v18`, each under a leading unit axis), the matching 1408 × 1024 tile of
  the down weights (`v25`) and the block accumulated so far (`v28`).  Row `p` gets the routing weight
  `[v5 p = the point's expert word]`; its weighted row is contracted with the two weight tiles, the hidden values
  `silu (gate) · up` are contracted with the down tile, and the result, multiplied by the routing weight once more, is
  ADDED to the accumulated entry.  Changes of float format are the identity over the extended reals and the three
  products are plain sums into a zero block.
-/
import proofs.«148586_j15427522527439_1_alg».proof.Proof.Gen.KernelIdeal.Skeleton
import proofs.«148586_j15427522527439_1_alg».proof.Proof.LibMatmulPlain
import proofs.«148586_j15427522527439_1_alg».proof.Proof.LibColumnLayout
import proofs.«148586_j15427522527439_1_alg».proof.Proof.MoeSpec
import Idealize.ShloMosaic.Lib.ValueLayout
import Idealize.ShloMosaic.Lib.Pipeline.Value

noncomputable section

namespace Cert.Moe.Point

open Cert.KernelIdeal Cert.KernelIdeal.Gen Idealize.ShloMosaic Idealize.ShloMosaic.ValueIdx Idealize.ShloMosaic.MatmulPlain
open scoped BigOperators

/-- Both of the body's dimension-number records are a plain matrix product's. -/
theorem plainIn : IsPlain (M := 512) (N := 1408) (K := 1024) dot_S512x1024_S1024x1408_S512x1408_1_0_0_1_n_n :=
  ⟨rfl, rfl, rfl, rfl, rfl, rfl⟩
theorem plainOut : IsPlain (M := 512) (N := 1024) (K := 1408) dot_S512x1408_S1408x1024_S512x1024_1_0_0_1_n_n :=
  ⟨rfl, rfl, rfl, rfl, rfl, rfl⟩

/-- Row `p`'s routing weight at a point whose expert word is `ew`. -/
def rowWeight (ew : BitVec 32) (v5 : IVec S512x1 32) (p : Fin 512) : EReal := Cert.Moe.onExpert (v5 (ix2 p (0 : Fin 1))) ew

/-- Row `p` of the block, weighted, against column `r` of a weight tile. -/
def tileProj (v11 : FVec Ideal S512x1024 .f32) (w : EReal) (v : FVec Ideal S1x1024x1408 .bf16) (p : Fin 512) (r : Fin 1408) : EReal :=
  ∑ k : Fin 1024, (v11 (ix2 p k) * w) * v (ix3 (0 : Fin 1) k r)

/-- The hidden value of row `p` at the tile's position `r`. -/
def tileHidden (v11 : FVec Ideal S512x1024 .f32) (w : EReal) (v15 v18 : FVec Ideal S1x1024x1408 .bf16) (p : Fin 512) (r : Fin 1408) : EReal :=
  (tileProj v11 w v15 p r * Ideal.logistic (tileProj v11 w v15 p r)) * tileProj v11 w v18 p r

/-- What the point adds to entry `(p, q)`. -/
def pointAdd (ew : BitVec 32) (v5 : IVec S512x1 32) (v11 : FVec Ideal S512x1024 .f32) (v15 v18 : FVec Ideal S1x1024x1408 .bf16)
    (v25 : FVec Ideal S1x1408x1024 .bf16) (p : Fin 512) (q : Fin 1024) : EReal :=
  (∑ r : Fin 1408, tileHidden v11 (rowWeight ew v5 p) v15 v18 p r * v25 (ix3 (0 : Fin 1) r q)) * rowWeight ew v5 p

/-- The routing-weight column the body computes, at row `p`. -/
theorem maskColumn_apply (ew : BitVec 32) (v5 : IVec S512x1 32) (p : Fin 512) :
    (sitofp (F := Ideal) .f32 (extui 32 (cmpi .eq (shapeCast S512x1 v5 shapeCasts_S512x1_S512x1) (broadcast S512x1 ew)) natLt_1_32)
      : FVec Ideal S512x1 .f32) (ix2 p (0 : Fin 1)) = rowWeight ew v5 p := by
  show FloatOps.sitofp (F := Ideal) .f32 ((IntOp.cmpi .eq (shapeCast S512x1 v5 shapeCasts_S512x1_S512x1 (ix2 p (0 : Fin 1))) ew).setWidth 32) = _
  rw [shapeCast_self]
  exact Cert.Moe.sitofp_extui_cmpi_eq _ _

/-- A product of the weighted block with a weight tile (under its unit axis), at `(p, r)`. -/
theorem tileProduct_apply (v11 : FVec Ideal S512x1024 .f32) (col : FVec Ideal S512x1 .f32) (v : FVec Ideal S1x1024x1408 .bf16)
    (p : Fin 512) (r : Fin 1408) :
    matmul dot_S512x1024_S1024x1408_S512x1408_1_0_0_1_n_n none
        (truncf .bf16 (mulf v11 (broadcastTo S512x1024 col broadcasts_S512x1_S512x1024)) bitsLt_bf16_f32)
        (shapeCast S1024x1408 v shapeCasts_S1x1024x1408_S1024x1408)
        (constant S512x1408 .f32 0x00000000#32) (ix2 p r)
      = tileProj v11 (col (ix2 p (0 : Fin 1))) v p r := by
  refine (matmul_zero_apply plainIn none _ _ p r).trans ?_
  refine Finset.sum_congr rfl fun k _ => ?_
  refine congrArg₂ (· * ·) ?_ ?_
  · show v11 (ix2 p k) * broadcastTo S512x1024 col broadcasts_S512x1_S512x1024 (ix2 p k) = _
    rw [Cert.ColumnLayout.broadcastTo_a1_ab_apply col broadcasts_S512x1_S512x1024 p k]
  · exact shapeCast_1ab_ab_apply v shapeCasts_S1x1024x1408_S1024x1408 k r

/-- THE POINT'S PAYLOAD at entry `(p, q)`: the accumulated entry plus what the point adds. -/
theorem pay2_apply (i : grid0.Coords) (v5 : IVec S512x1 32) (v11 : FVec Ideal S512x1024 .f32) (v15 v18 : FVec Ideal S1x1024x1408 .bf16)
    (v25 : FVec Ideal S1x1408x1024 .bf16) (v28 : FVec Ideal S512x1024 .f32) (p : Fin 512) (q : Fin 1024) :
    k0_pay2 (F := Ideal) i v5 v11 v15 v18 v25 v28 (ix2 p q)
      = v28 (ix2 p q) + pointAdd (BitVec.ofNat 32 (i 1).val) v5 v11 v15 v18 v25 p q := by
  unfold k0_pay2
  dsimp only
  refine (addf_apply _ _ _).trans ?_
  refine congrArg₂ (· + ·) ?_ ?_
  · rw [shapeCast_self]
  · refine (mulf_apply _ _ _).trans ?_
    unfold pointAdd
    refine congrArg₂ (· * ·) ?_ ?_
    · refine (matmul_zero_apply plainOut none _ _ p q).trans ?_
      refine Finset.sum_congr rfl fun r _ => ?_
      refine congrArg₂ (· * ·) ?_ ?_
      · show (matmul (F := Ideal) dot_S512x1024_S1024x1408_S512x1408_1_0_0_1_n_n none _ _ _ (ix2 p r)
            * FloatOps.logistic (F := Ideal) (φ := .f32) (matmul (F := Ideal) dot_S512x1024_S1024x1408_S512x1408_1_0_0_1_n_n none _ _ _ (ix2 p r)))
            * matmul (F := Ideal) dot_S512x1024_S1024x1408_S512x1408_1_0_0_1_n_n none _ _ _ (ix2 p r) = _
        rw [tileProduct_apply, tileProduct_apply, maskColumn_apply]
        rfl
      · exact shapeCast_1ab_ab_apply v25 shapeCasts_S1x1408x1024_S1408x1024 r q
    · rw [Cert.ColumnLayout.broadcastTo_a1_ab_apply _ broadcasts_S512x1_S512x1024 p q]
      exact maskColumn_apply _ v5 p

end Cert.Moe.Point

end
-- ==== Proof.KBlocks.lean ====
/-
  The input blocks of a grid point, read as entries of the argument arrays.

  The 256 points are numbered row-major over (token tile, expert, hidden tile) = (16, 8, 2): point `n` has token tile
  `n / 16`, expert `(n % 16) / 2` and hidden tile `n % 2`.  Its token block is rows `512·(n/16) …` of the tokens and of the
  expert words (the words reshaped to a column); its gate and up blocks are the `1024 × 1408` tile of the expert's
  TRANSPOSED matrix, i.e. entry `(k, r)` is `W (e, 1408·(n%2) + r, k)`; its down block is the `1408 × 1024` tile of the
  expert's transposed down matrix, entry `(r, q)` being `Wd (e, q, 1408·(n%2) + r)`.  The change of float format the
  host applies to the weights first is the identity over the extended reals.
-/
import proofs.«148586_j15427522527439_1_alg».proof.Proof.Gen.KernelIdeal.Value
import Idealize.ShloMosaic.Lib.ValueLayout
import Idealize.ShloMosaic.Lib.Pipeline.Value
import Idealize.ShloMosaic.Lib.StableHlo.Run

noncomputable section

namespace Cert.Moe.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps over the grid -/

theorem grid_facts : ∀ t : Fin cfg0.N, ((grid0.coords t) 1).val = t.val % 16 / 2 :=
  (by decide +kernel : ∀ t : Fin grid0.N, _)

theorem idx_facts0 : ∀ t : Fin cfg0.N, win0_0.index t (0 : Fin 2) = t.val / 16 ∧ win0_0.index t (1 : Fin 2) = 0 :=
  (by decide +kernel : ∀ t : Fin grid0.N, _)

theorem idx_facts1 : ∀ t : Fin cfg0.N, win0_1.index t (0 : Fin 2) = t.val / 16 ∧ win0_1.index t (1 : Fin 2) = 0 :=
  (by decide +kernel : ∀ t : Fin grid0.N, _)

theorem idx_facts2 : ∀ t : Fin cfg0.N, win0_2.index t (0 : Fin 3) = t.val % 16 / 2 ∧ win0_2.index t (1 : Fin 3) = 0
    ∧ win0_2.index t (2 : Fin 3) = t.val % 2 :=
  (by decide +kernel : ∀ t : Fin grid0.N, _)

theorem idx_facts3 : ∀ t : Fin cfg0.N, win0_3.index t (0 : Fin 3) = t.val % 16 / 2 ∧ win0_3.index t (1 : Fin 3) = 0
    ∧ win0_3.index t (2 : Fin 3) = t.val % 2 :=
  (by decide +kernel : ∀ t : Fin grid0.N, _)

theorem idx_facts4 : ∀ t : Fin cfg0.N, win0_4.index t (0 : Fin 3) = t.val % 16 / 2 ∧ win0_4.index t (1 : Fin 3) = t.val % 2
    ∧ win0_4.index t (2 : Fin 3) = 0 :=
  (by decide +kernel : ∀ t : Fin grid0.N, _)

/-! ## The arrays the region finds -/

/-- The expert words as the region finds them: the vector reshaped to a column. -/
theorem V_words (c : Dev nD) :
    (V m c main_v6 : S8192x1.Idx → BitVec 32) = shapeCast S8192x1 (m ((c : Thread nD τ).loc main_arg1)) shapeCasts_S8192_S8192x1 := by
  dsimp only [V, hostOps0]; after_results; all_goals rfl

/-- The gate weights as the region finds them: each expert's matrix transposed. -/
theorem V_gate (c : Dev nD) :
    (V m c main_v1 : S8x1024x2816.Idx → EReal)
      = transpose S8x1024x2816 [0, 2, 1] (truncf (F := Ideal) .bf16 (m ((c : Thread nD τ).loc main_arg2)) bitsLt_bf16_f32)
          transposes_S8x2816x1024_S8x1024x2816_0_2_1 := by
  dsimp only [V, hostOps0]; after_results; all_goals rfl

/-- The up weights as the region finds them. -/
theorem V_up (c : Dev nD) :
    (V m c main_v3 : S8x1024x2816.Idx → EReal)
      = transpose S8x1024x2816 [0, 2, 1] (truncf (F := Ideal) .bf16 (m ((c : Thread nD τ).loc main_arg3)) bitsLt_bf16_f32)
          transposes_S8x2816x1024_S8x1024x2816_0_2_1 := by
  dsimp only [V, hostOps0]; after_results; all_goals rfl

/-- The down weights as the region finds them. -/
theorem V_down (c : Dev nD) :
    (V m c main_v5 : S8x2816x1024.Idx → EReal)
      = transpose S8x2816x1024 [0, 2, 1] (truncf (F := Ideal) .bf16 (m ((c : Thread nD τ).loc main_arg4)) bitsLt_bf16_f32)
          transposes_S8x1024x2816_S8x2816x1024_0_2_1 := by
  dsimp only [V, hostOps0]; after_results; all_goals rfl

/-! ## The blocks -/

/-- The token row a block row is. -/
def tok (t : Fin cfg0.N) (p : Fin 512) : Fin 8192 :=
  ⟨512 * (t.val / 16) + p.val, by have := t.isLt; have h : cfg0.N = 256 := N_0; have := p.isLt; omega⟩

/-- The point's expert. -/
def expert (t : Fin cfg0.N) : Fin 8 := ⟨t.val % 16 / 2, by omega⟩

/-- The hidden position a tile position is. -/
def hpos (t : Fin cfg0.N) (r : Fin 1408) : Fin 2816 := ⟨1408 * (t.val % 2) + r.val, by have := r.isLt; omega⟩

theorem blk_tokens (c : Dev nD) (t : Fin cfg0.N) (p : Fin 512) (k : Fin 1024) :
    iblk m c 0 t (ix2 p k) = m ((c : Thread nD τ).loc main_arg0) (ix2 (tok t p) k) := by
  show V m c main_arg0 (((cfg0.win 0).blk t).view.emb (ix2 p k)) = _
  rw [V_main_arg0]
  obtain ⟨e0, e1⟩ := idx_facts0 t
  refine congrArg _ (funext fun a => Fin.ext ?_)
  match a with
  | ⟨0, _⟩ => show win0_0.index t (0 : Fin 2) * 512 + 1 * p.val = 512 * (t.val / 16) + p.val; omega
  | ⟨1, _⟩ => show win0_0.index t (1 : Fin 2) * 1024 + 1 * k.val = k.val; omega

theorem blk_words (c : Dev nD) (t : Fin cfg0.N) (p : Fin 512) :
    iblk m c 1 t (ix2 p (0 : Fin 1)) = m ((c : Thread nD τ).loc main_arg1) (ix1 (tok t p)) := by
  show V m c main_v6 (((cfg0.win 1).blk t).view.emb (ix2 p (0 : Fin 1))) = _
  rw [V_words]
  obtain ⟨e0, e1⟩ := idx_facts1 t
  refine shapeCast_apply _ shapeCasts_S8192_S8192x1 _ (ix1 (tok t p)) ?_
  rw [Shape.rowMajor_val_one, Shape.rowMajor_val_two]
  show 512 * (t.val / 16) + p.val = (win0_1.index t (0 : Fin 2) * 512 + 1 * p.val) * 1 + (win0_1.index t (1 : Fin 2) * 1 + 1 * 0)
  omega

theorem blk_gate (c : Dev nD) (t : Fin cfg0.N) (k : Fin 1024) (r : Fin 1408) :
    iblk m c 2 t (ix3 (0 : Fin 1) k r) = m ((c : Thread nD τ).loc main_arg2) (ix3 (expert t) (hpos t r) k) := by
  show V m c main_v1 (((cfg0.win 2).blk t).view.emb (ix3 (0 : Fin 1) k r)) = _
  rw [V_gate]
  obtain ⟨e0, e1, e2⟩ := idx_facts2 t
  refine transpose_apply _ _ transposes_S8x2816x1024_S8x1024x2816_0_2_1 _ (ix3 (expert t) (hpos t r) k) fun b => ?_
  match b with
  | ⟨0, _⟩ => show t.val % 16 / 2 = win0_2.index t (0 : Fin 3) * 1 + 1 * 0; omega
  | ⟨1, _⟩ => show k.val = win0_2.index t (1 : Fin 3) * 1024 + 1 * k.val; omega
  | ⟨2, _⟩ => show 1408 * (t.val % 2) + r.val = win0_2.index t (2 : Fin 3) * 1408 + 1 * r.val; omega

theorem blk_up (c : Dev nD) (t : Fin cfg0.N) (k : Fin 1024) (r : Fin 1408) :
    iblk m c 3 t (ix3 (0 : Fin 1) k r) = m ((c : Thread nD τ).loc main_arg3) (ix3 (expert t) (hpos t r) k) := by
  show V m c main_v3 (((cfg0.win 3).blk t).view.emb (ix3 (0 : Fin 1) k r)) = _
  rw [V_up]
  obtain ⟨e0, e1, e2⟩ := idx_facts3 t
  refine transpose_apply _ _ transposes_S8x2816x1024_S8x1024x2816_0_2_1 _ (ix3 (expert t) (hpos t r) k) fun b => ?_
  match b with
  | ⟨0, _⟩ => show t.val % 16 / 2 = win0_3.index t (0 : Fin 3) * 1 + 1 * 0; omega
  | ⟨1, _⟩ => show k.val = win0_3.index t (1 : Fin 3) * 1024 + 1 * k.val; omega
  | ⟨2, _⟩ => show 1408 * (t.val % 2) + r.val = win0_3.index t (2 : Fin 3) * 1408 + 1 * r.val; omega

theorem blk_down (c : Dev nD) (t : Fin cfg0.N) (r : Fin 1408) (q : Fin 1024) :
    iblk m c 4 t (ix3 (0 : Fin 1) r q) = m ((c : Thread nD τ).loc main_arg4) (ix3 (expert t) q (hpos t r)) := by
  show V m c main_v5 (((cfg0.win 4).blk t).view.emb (ix3 (0 : Fin 1) r q)) = _
  rw [V_down]
  obtain ⟨e0, e1, e2⟩ := idx_facts4 t
  refine transpose_apply _ _ transposes_S8x1024x2816_S8x2816x1024_0_2_1 _ (ix3 (expert t) q (hpos t r)) fun b => ?_
  match b with
  | ⟨0, _⟩ => show t.val % 16 / 2 = win0_4.index t (0 : Fin 3) * 1 + 1 * 0; omega
  | ⟨1, _⟩ => show 1408 * (t.val % 2) + r.val = win0_4.index t (1 : Fin 3) * 1408 + 1 * r.val; omega
  | ⟨2, _⟩ => show q.val = win0_4.index t (2 : Fin 3) * 1024 + 1 * q.val; omega

end Cert.Moe.Blocks

end
-- ==== Proof.MoeArray.lean ====
/-
  The layer as an array, and its sum over the experts written out.
-/
import proofs.«148586_j15427522527439_1_alg».proof.Proof.MoeSpec

noncomputable section

namespace Cert.Moe

open Idealize.ShloMosaic Idealize.ShloMosaic.ValueIdx
open scoped BigOperators

/-- THE LAYER as an `8192 × 1024` array of extended reals. -/
def layerArray (x : Tokens) (idx : Words) (Wg Wu : InW) (Wd : OutW) : (⟨2, ![8192, 1024]⟩ : Shape).Idx → EReal :=
  fun i => layer x idx Wg Wu Wd (i 0) (i 1)

theorem layerArray_apply (x : Tokens) (idx : Words) (Wg Wu : InW) (Wd : OutW) (t : Fin 8192) (h : Fin 1024) :
    layerArray x idx Wg Wu Wd (ix2 t h) = layer x idx Wg Wu Wd t h := rfl

/-- The layer is the eight experts' outputs added in turn onto zero. -/
theorem layer_chain (x : Tokens) (idx : Words) (Wg Wu : InW) (Wd : OutW) (t : Fin 8192) (h : Fin 1024) :
    layer x idx Wg Wu Wd t h
      = 0 + expertOut x idx Wg Wu Wd ⟨0, by decide⟩ t h + expertOut x idx Wg Wu Wd ⟨1, by decide⟩ t h
          + expertOut x idx Wg Wu Wd ⟨2, by decide⟩ t h + expertOut x idx Wg Wu Wd ⟨3, by decide⟩ t h
          + expertOut x idx Wg Wu Wd ⟨4, by decide⟩ t h + expertOut x idx Wg Wu Wd ⟨5, by decide⟩ t h
          + expertOut x idx Wg Wu Wd ⟨6, by decide⟩ t h + expertOut x idx Wg Wu Wd ⟨7, by decide⟩ t h := by
  unfold layer
  rw [Finset.sum_range_succ, Finset.sum_range_succ, Finset.sum_range_succ, Finset.sum_range_succ, Finset.sum_range_succ,
    Finset.sum_range_succ, Finset.sum_range_succ, Finset.sum_range_succ, Finset.sum_range_zero]
  unfold outOf
  rw [dif_pos (show (0 : ℕ) < 8 by decide), dif_pos (show (1 : ℕ) < 8 by decide), dif_pos (show (2 : ℕ) < 8 by decide),
    dif_pos (show (3 : ℕ) < 8 by decide), dif_pos (show (4 : ℕ) < 8 by decide), dif_pos (show (5 : ℕ) < 8 by decide),
    dif_pos (show (6 : ℕ) < 8 by decide), dif_pos (show (7 : ℕ) < 8 by decide)]

end Cert.Moe

end
-- ==== Proof.KFold.lean ====
/-
  The kernel's result array is the layer.

  The output block of a token tile stays in its staging buffer through the tile's sixteen points (eight experts times
  two hidden tiles): the first point starts it from zero, every point adds its own contribution, the last point's block
  is written back.  So an entry of the final array is zero plus the sum of sixteen addends, and addend `s`, read
  through the point's input blocks, is hidden tile `s % 2` of expert `s / 2`'s weighted output for that token — the
  sixteen addends the specification sums to the layer.
-/
import proofs.«148586_j15427522527439_1_alg».proof.Proof.Gen.KernelIdeal.Value
import proofs.«148586_j15427522527439_1_alg».proof.Proof.KPoint
import proofs.«148586_j15427522527439_1_alg».proof.Proof.KBlocks
import proofs.«148586_j15427522527439_1_alg».proof.Proof.MoeArray

noncomputable section

namespace Cert.Moe.Kernel

open Cert.KernelIdeal Cert.KernelIdeal.Gen Cert.KernelIdeal.Value Idealize.ShloMosaic Idealize.ShloMosaic.TcCoe Idealize.SL.Sem
open Idealize.ShloMosaic.ValueIdx Cert.Moe.Blocks
open scoped BigOperators

variable (m : (ℓ : Loc nD τ sig) → Buf (Elt Ideal) ℓ)

/-- What point `n` adds to entry `y` of its output block, through its input blocks; zero past the grid. -/
def addAt (c : Dev nD) (n : ℕ) (y : S512x1024.Idx) : EReal :=
  if h : n < cfg0.N then
    Cert.Moe.Point.pointAdd (BitVec.ofNat 32 ((grid0.coords ⟨n, h⟩) 1).val) (iblk m c 1 ⟨n, h⟩) (iblk m c 0 ⟨n, h⟩)
      (iblk m c 2 ⟨n, h⟩) (iblk m c 3 ⟨n, h⟩) (iblk m c 4 ⟨n, h⟩) (y 0) (y 1)
  else 0

/-- A tile's first point leaves zero plus its addend. -/
theorem reset_apply (c : Dev nD) (n : ℕ) (h : n < cfg0.N) (y : S512x1024.Idx) :
    reset5 m c n h y = 0 + addAt m c n y := by
  obtain ⟨p, q, rfl⟩ : ∃ (p : Fin 512) (q : Fin 1024), y = ix2 p q := ⟨y 0, y 1, eq_ix2 y⟩
  unfold reset5 addAt
  rw [dif_pos h]
  refine (Cert.Moe.Point.pay2_apply (grid0.coords ⟨n, h⟩) (iblk m c 1 ⟨n, h⟩) (iblk m c 0 ⟨n, h⟩) (iblk m c 2 ⟨n, h⟩)
    (iblk m c 3 ⟨n, h⟩) (iblk m c 4 ⟨n, h⟩) (k0_pay1 (F := Ideal)) p q).trans ?_
  refine congrArg₂ (· + ·) ?_ rfl
  show Ideal.ofBits .f32 0x00000000#32 = 0
  exact Ideal.ofBits_zero_f32

/-- Every later point adds its addend to what the point before left. -/
theorem step_apply (c : Dev nD) (n : ℕ) (h : n < cfg0.N) (acc : Vec Ideal S512x1024 .f32) (y : S512x1024.Idx) :
    step5 m c n h acc y = acc y + addAt m c n y := by
  obtain ⟨p, q, rfl⟩ : ∃ (p : Fin 512) (q : Fin 1024), y = ix2 p q := ⟨y 0, y 1, eq_ix2 y⟩
  unfold step5 addAt
  rw [dif_pos h]
  exact Cert.Moe.Point.pay2_apply (grid0.coords ⟨n, h⟩) (iblk m c 1 ⟨n, h⟩) (iblk m c 0 ⟨n, h⟩) (iblk m c 2 ⟨n, h⟩)
    (iblk m c 3 ⟨n, h⟩) (iblk m c 4 ⟨n, h⟩) acc p q

/-- After a tile's sixteen points the buffer holds zero plus the sixteen addends. -/
theorem fold_apply (c : Dev nD) (b : ℕ) (h : b + 15 < cfg0.N) (y : S512x1024.Idx) :
    Pipeline.accAt (reset5 m c) (step5 m c) b 15 h y = 0 + ∑ s ∈ Finset.range 16, addAt m c (b + s) y :=
  Pipeline.accAt_add_apply (reset5 m c) (step5 m c) (fun _ => (0 : EReal)) (addAt m c) b 15
    (fun h i => reset_apply m c b h i) (fun n h acc i _ _ => step_apply m c n h acc i) 15 (Nat.le_refl 15) h y

/-- A point's addend is its hidden tile of its expert's weighted output for the block row's token. -/
theorem addAt_eq (c : Dev nD) (t : Fin cfg0.N) (p : Fin 512) (q : Fin 1024) :
    addAt m c t.val (ix2 p q)
      = Cert.Moe.tilePart (m ((c : Thread nD τ).loc main_arg0)) (m ((c : Thread nD τ).loc main_arg1))
          (m ((c : Thread nD τ).loc main_arg2)) (m ((c : Thread nD τ).loc main_arg3)) (m ((c : Thread nD τ).loc main_arg4))
          (expert t) ⟨t.val % 2, Nat.mod_lt _ (by decide)⟩ (tok t p) q := by
  unfold addAt
  rw [dif_pos t.isLt]
  show Cert.Moe.Point.pointAdd (BitVec.ofNat 32 ((grid0.coords t) 1).val) (iblk m c 1 t) (iblk m c 0 t) (iblk m c 2 t) (iblk m c 3 t)
    (iblk m c 4 t) p q = _
  have hw : Cert.Moe.Point.rowWeight (BitVec.ofNat 32 ((grid0.coords t) 1).val) (iblk m c 1 t) p
      = Cert.Moe.weight (m ((c : Thread nD τ).loc main_arg1)) (expert t) (tok t p) := by
    unfold Cert.Moe.Point.rowWeight Cert.Moe.weight
    rw [blk_words m c t p, grid_facts t]
    rfl
  have hp : ∀ r : Fin 1408, hpos t r = Cert.Moe.tilePos ⟨t.val % 2, Nat.mod_lt _ (by decide)⟩ r := fun r => Fin.ext rfl
  have hproj : ∀ (W : S8x2816x1024.Idx → EReal) (blk : FVec Ideal S1x1024x1408 .bf16),
      (∀ (k : Fin 1024) (r : Fin 1408), blk (ix3 (0 : Fin 1) k r) = W (ix3 (expert t) (hpos t r) k)) → ∀ r : Fin 1408,
      Cert.Moe.Point.tileProj (iblk m c 0 t) (Cert.Moe.weight (m ((c : Thread nD τ).loc main_arg1)) (expert t) (tok t p)) blk p r
        = Cert.Moe.proj (m ((c : Thread nD τ).loc main_arg0)) (m ((c : Thread nD τ).loc main_arg1)) W (expert t) (tok t p)
            (Cert.Moe.tilePos ⟨t.val % 2, Nat.mod_lt _ (by decide)⟩ r) := by
    intro W blk hblk r
    unfold Cert.Moe.Point.tileProj Cert.Moe.proj Cert.Moe.row
    refine Finset.sum_congr rfl fun k _ => ?_
    rw [blk_tokens m c t p k, hblk k r, hp r]
  unfold Cert.Moe.Point.pointAdd Cert.Moe.tilePart
  rw [hw]
  refine congrArg (· * Cert.Moe.weight (m ((c : Thread nD τ).loc main_arg1)) (expert t) (tok t p)) ?_
  refine Finset.sum_congr rfl fun r _ => ?_
  rw [blk_down m c t r q, hp r]
  refine congrArg (· * _) ?_
  unfold Cert.Moe.Point.tileHidden Cert.Moe.hidden
  rw [hproj _ (iblk m c 2 t) (fun k r => blk_gate m c t k r) r, hproj _ (iblk m c 3 t) (fun k r => blk_up m c t k r) r]

/-- THE KERNEL'S RESULT at `(t, h)` is the layer there. -/
theorem G5_apply (c : Dev nD) (t : Fin 8192) (h : Fin 1024) :
    G5 m c (ix2 t h)
      = Cert.Moe.layer (m ((c : Thread nD τ).loc main_arg0)) (m ((c : Thread nD τ).loc main_arg1))
          (m ((c : Thread nD τ).loc main_arg2)) (m ((c : Thread nD τ).loc main_arg3)) (m ((c : Thread nD τ).loc main_arg4)) t h := by
  have hN : cfg0.N = 256 := N_0
  have ht : t.val < 8192 := t.isLt
  have hh : h.val < 1024 := h.isLt
  have hrun : run5Of (ix2 t h) = t.val / 512 := by
    show 1 * (t.val / 512 - 0) + 1 * (h.val / 1024 - 0) = t.val / 512
    omega
  have hlt : 16 * run5Of (ix2 t h) + 15 < cfg0.N := by rw [hrun, hN]; omega
  unfold G5
  rw [dif_pos hlt]
  refine (fold_apply m c _ hlt _).trans ?_
  rw [zero_add, ← Cert.Moe.sum_addends]
  refine Finset.sum_congr rfl fun s hs => ?_
  have hs' : s < 16 := Finset.mem_range.mp hs
  have hn : 16 * run5Of (ix2 t h) + s < cfg0.N := by rw [hrun, hN]; omega
  have hloc : loc5Of (ix2 t h) = ix2 (⟨t.val % 512, Nat.mod_lt _ (by decide)⟩ : Fin 512) (⟨h.val % 1024, Nat.mod_lt _ (by decide)⟩ : Fin 1024) := by
    funext a
    match a with
    | ⟨0, _⟩ => rfl
    | ⟨1, _⟩ => rfl
  rw [hloc]
  refine (addAt_eq m c ⟨16 * run5Of (ix2 t h) + s, hn⟩ _ _).trans ?_
  unfold Cert.Moe.addend
  rw [dif_pos hs']
  have e1 : expert ⟨16 * run5Of (ix2 t h) + s, hn⟩ = (⟨s / 2, by omega⟩ : Fin 8) := Fin.ext (by
    show (16 * run5Of (ix2 t h) + s) % 16 / 2 = s / 2
    omega)
  have e2 : (⟨(16 * run5Of (ix2 t h) + s) % 2, Nat.mod_lt _ (by decide)⟩ : Fin 2) = ⟨s % 2, Nat.mod_lt _ (by decide)⟩ := Fin.ext (by
    show (16 * run5Of (ix2 t h) + s) % 2 = s % 2
    omega)
  have e3 : tok ⟨16 * run5Of (ix2 t h) + s, hn⟩ (⟨t.val % 512, Nat.mod_lt _ (by decide)⟩ : Fin 512) = t := Fin.ext (by
    show 512 * ((16 * run5Of (ix2 t h) + s) / 16) + t.val % 512 = t.val
    rw [hrun]
    omega)
  have e4 : (⟨h.val % 1024, Nat.mod_lt _ (by decide)⟩ : Fin 1024) = h := Fin.ext (by show h.val % 1024 = h.val; omega)
  have key : ∀ (a a' : Fin 8) (b b' : Fin 2) (u u' : Fin 8192) (v v' : Fin 1024), a = a' → b = b' → u = u' → v = v' →
      Cert.Moe.tilePart (m ((c : Thread nD τ).loc main_arg0)) (m ((c : Thread nD τ).loc main_arg1))
          (m ((c : Thread nD τ).loc main_arg2)) (m ((c : Thread nD τ).loc main_arg3)) (m ((c : Thread nD τ).loc main_arg4)) a b u v
        = Cert.Moe.tilePart (m ((c : Thread nD τ).loc main_arg0)) (m ((c : Thread nD τ).loc main_arg1))
          (m ((c : Thread nD τ).loc main_arg2)) (m ((c : Thread nD τ).loc main_arg3)) (m ((c : Thread nD τ).loc main_arg4)) a' b' u' v' := by
    intro a a' b b' u u' v v' ha hb hu hv
    rw [ha, hb, hu, hv]
  exact key _ _ _ _ _ _ _ _ e1 e2 e3 e4

end Cert.Moe.Kernel

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«148586_j15427522527439_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibHostMean.lean ====
/-
  A per-row quantity carried back onto every entry of its row, as a host program writes it, and the row mean built
  from it.

  A vector of `a` entries broadcast to a one-column matrix (`[a] → [a, 1]`, along axis 0) holds entry `i` at
  `(i, 0)`; that column broadcast along its rows (`[a, 1] → [a, b]`) holds at `(i, j)` the column's entry `(i, 0)`.
  So `x / max(c, 1)[:, None]`, written with a broadcast scalar one, has at `(p, q)` the quotient of `x (p, q)` by the
  larger of `c p` and one.  Stated for any extents.
-/
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws

noncomputable section

namespace Cert.HostMean

open Idealize.ShloMosaic Idealize.ShloMosaic.ValueIdx

/-- A vector broadcast to a one-column matrix reads, at `(i, u)`, the vector at `i`. -/
theorem broadcastInDim_a_a1_apply {a : Nat} {α : Type} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun c => match c with
    | ⟨0, _⟩ => by
      show i.val = if a = 1 then 0 else i.val
      have := i.isLt
      split <;> omega

/-- A one-column matrix broadcast along its rows reads, at `(i, j)`, the column at `(i, 0)`. -/
theorem broadcastInDim_a1_ab_apply {a b : Nat} {α : Type} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) fun c => match c with
    | ⟨0, _⟩ => by
      show i.val = if a = 1 then 0 else i.val
      have := i.isLt
      split <;> omega
    | ⟨1, _⟩ => by
      show 0 = if (1 : Nat) = 1 then 0 else j.val
      rw [if_pos rfl]

/-- A scalar one broadcast to any shape is one at every index. -/
theorem ones_apply {s : Shape} (h : (⟨0, ![]⟩ : Shape).BroadcastsInDim s ![]) (i : s.Idx) :
    broadcastInDim s ![] h (constant (F := Ideal) ⟨0, ![]⟩ .f32 0x3F800000#32) i = (1 : EReal) := by
  rw [broadcastInDim_apply ![] h _ i ix0 fun a => a.elim0]
  exact Ideal.ofBits_one_f32

/-- A scalar zero broadcast to any shape is zero at every index. -/
theorem zeros_apply {s : Shape} (h : (⟨0, ![]⟩ : Shape).BroadcastsInDim s ![]) (i : s.Idx) :
    broadcastInDim s ![] h (constant (F := Ideal) ⟨0, ![]⟩ .f32 0x00000000#32) i = (0 : EReal) := by
  rw [broadcastInDim_apply ![] h _ i ix0 fun a => a.elim0]
  exact Ideal.ofBits_zero_f32

/-- The host's `x / max(c, 1)[:, None]` at `(p, q)`: `x (p, q)` divided by the larger of `c p` and one. -/
theorem divByCount_apply {M D : Nat} (x : FVec Ideal ⟨2, ![M, D]⟩ .f32) (c : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, D]⟩ ![0, 1]) (p : Fin M) (q : Fin D) :
    Host.divf (F := Ideal) x
        (broadcastInDim ⟨2, ![M, D]⟩ ![0, 1] h2 (broadcastInDim ⟨2, ![M, 1]⟩ ![0] h1
          (maximumf (F := Ideal) c (broadcastInDim ⟨1, ![M]⟩ ![] h0 (constant (F := Ideal) ⟨0, ![]⟩ .f32 0x3F800000#32)))))
        (ix2 p q)
      = Ideal.div (x (ix2 p q)) (max (c (ix1 p)) 1) := by
  show Ideal.div (x (ix2 p q)) (broadcastInDim ⟨2, ![M, D]⟩ ![0, 1] h2 (broadcastInDim ⟨2, ![M, 1]⟩ ![0] h1
      (maximumf (F := Ideal) c (broadcastInDim ⟨1, ![M]⟩ ![] h0 (constant (F := Ideal) ⟨0, ![]⟩ .f32 0x3F800000#32))))
      (ix2 p q)) = _
  rw [broadcastInDim_a1_ab_apply _ h2 p q, broadcastInDim_a_a1_apply _ h1 p (0 : Fin 1)]
  show Ideal.div (x (ix2 p q)) (max (c (ix1 p))
      (broadcastInDim ⟨1, ![M]⟩ ![] h0 (constant (F := Ideal) ⟨0, ![]⟩ .f32 0x3F800000#32) (ix1 p))) = _
  rw [ones_apply h0 (ix1 p)]

end Cert.HostMean

end
-- ==== Proof.RefExpert.lean ====
/-
  One expert of the reference, as the host program spells it, read at an entry.

  For each expert the program builds the routing-weight column (`idx == e` as a float, broadcast to a column and then
  along the rows), multiplies the tokens by it, slices the expert's three matrices out of the stacked weights, drops the
  unit axis, transposes them, and forms `((silu (xi · Wgᵀ)) · (xi · Wuᵀ)) · Wdᵀ`, `silu g = g · (1 / (1 + exp (−g)))`,
  multiplied by the routing weight again.  Read at `(t, h)` over the extended reals this is the expert's weighted
  output of the specification: the two host products are plain sums, `1 / (1 + exp (−g))` is the logistic function, a
  transposed slice at `(k, i)` is the stacked weight at `(e, i, k)`.  The expert's number enters only through its word
  and the slices' offsets, so one statement serves all eight.
-/
import proofs.«148586_j15427522527439_1_alg».proof.ReferenceIdeal
import proofs.«148586_j15427522527439_1_alg».proof.Proof.Gen.ReferenceIdeal
import proofs.«148586_j15427522527439_1_alg».proof.Proof.LibPlainProduct
import proofs.«148586_j15427522527439_1_alg».proof.Proof.LibHostMean
import proofs.«148586_j15427522527439_1_alg».proof.Proof.MoeSpec
import Idealize.ShloMosaic.Lib.ValueLayout
import Idealize.ShloMosaic.Lib.Pipeline.Value
import Idealize.ShloMosaic.Lib.IdealHost

noncomputable section

namespace Cert.Moe.Ref

open Cert.ReferenceIdeal Cert.ReferenceIdeal.Gen Idealize.ShloMosaic Idealize.ShloMosaic.ValueIdx Idealize.ShloMosaic.MatmulPlain
open scoped BigOperators

theorem plainIn : IsPlain (M := 8192) (N := 2816) (K := 1024) dot_S8192x1024_S1024x2816_S8192x2816_1_0_0_1_n_n :=
  ⟨rfl, rfl, rfl, rfl, rfl, rfl⟩
theorem plainOut : IsPlain (M := 8192) (N := 1024) (K := 2816) dot_S8192x2816_S2816x1024_S8192x1024_1_0_0_1_n_n :=
  ⟨rfl, rfl, rfl, rfl, rfl, rfl⟩

/-- The routing-weight column of the expert whose word is `ew`. -/
def weightColumn (idx : IVec S8192 32) (ew : BitVec 32) : FVec Ideal S8192x1 .f32 :=
  broadcastInDim S8192x1 ![0] bcast_S8192_S8192x1_0
    (uitofp (F := Ideal) .f32 (cmpi .eq idx (broadcastInDim S8192 ![] bcast_S_S8192 (constantI S_ 32 ew))))

/-- An expert's `2816 × 1024` matrix sliced out of the stack at offsets `off`, transposed. -/
def inMatrix (W : FVec Ideal S8x2816x1024 .f32) (off : Fin 3 → ℕ) (h : S8x2816x1024.Slices off S1x2816x1024) : FVec Ideal S1024x2816 .f32 :=
  transpose S1024x2816 [1, 0] (shapeCast _ (extractStridedSlice S1x2816x1024 off W h) shapeCasts_S1x2816x1024_S2816x1024)
    transposes_S2816x1024_S1024x2816_1_0

/-- An expert's `1024 × 2816` matrix sliced out of the stack at offsets `off`, transposed. -/
def outMatrix (W : FVec Ideal S8x1024x2816 .f32) (off : Fin 3 → ℕ) (h : S8x1024x2816.Slices off S1x1024x2816) : FVec Ideal S2816x1024 .f32 :=
  transpose S2816x1024 [1, 0] (shapeCast _ (extractStridedSlice S1x1024x2816 off W h) shapeCasts_S1x1024x2816_S1024x2816)
    transposes_S1024x2816_S2816x1024_1_0

/-- The weighted tokens. -/
def weighted (x : FVec Ideal S8192x1024 .f32) (idx : IVec S8192 32) (ew : BitVec 32) : FVec Ideal S8192x1024 .f32 :=
  mulf x (broadcastInDim S8192x1024 ![0, 1] bcast_S8192x1_S8192x1024_0_1 (weightColumn idx ew))

/-- `silu` as the host's called function spells it. -/
def hostSilu (g : FVec Ideal S8192x2816 .f32) : FVec Ideal S8192x2816 .f32 :=
  mulf g (Host.divf (broadcastInDim S8192x2816 ![] bcast_S_S8192x2816 (constant (F := Ideal) S_ .f32 0x3F800000#32))
    (addf (broadcastInDim S8192x2816 ![] bcast_S_S8192x2816 (constant (F := Ideal) S_ .f32 0x3F800000#32)) (Host.exp (Host.negf g))))

/-- ONE EXPERT'S BLOCK of the reference: the operations between two additions into the running result. -/
def expertBlock (x : FVec Ideal S8192x1024 .f32) (idx : IVec S8192 32) (Wg Wu : FVec Ideal S8x2816x1024 .f32) (Wd : FVec Ideal S8x1024x2816 .f32)
    (ew : BitVec 32) (off : Fin 3 → ℕ) (hin : S8x2816x1024.Slices off S1x2816x1024) (hout : S8x1024x2816.Slices off S1x1024x2816) :
    FVec Ideal S8192x1024 .f32 :=
  mulf (Host.dotGeneral dot_S8192x2816_S2816x1024_S8192x1024_1_0_0_1_n_n none
      (mulf (hostSilu (Host.dotGeneral dot_S8192x1024_S1024x2816_S8192x2816_1_0_0_1_n_n none (weighted x idx ew) (inMatrix Wg off hin)))
        (Host.dotGeneral dot_S8192x1024_S1024x2816_S8192x2816_1_0_0_1_n_n none (weighted x idx ew) (inMatrix Wu off hin)))
      (outMatrix Wd off hout))
    (broadcastInDim S8192x1024 ![0, 1] bcast_S8192x1_S8192x1024_0_1 (weightColumn idx ew))

/-! ## Read at an entry -/

theorem weightColumn_apply (idx : IVec S8192 32) (ew : BitVec 32) (t : Fin 8192) :
    weightColumn idx ew (ix2 t (0 : Fin 1)) = Cert.Moe.onExpert (idx (ix1 t)) ew := by
  unfold weightColumn
  rw [Cert.HostMean.broadcastInDim_a_a1_apply _ bcast_S8192_S8192x1_0 t (0 : Fin 1)]
  show FloatOps.uitofp (F := Ideal) .f32 (IntOp.cmpi .eq (idx (ix1 t)) (broadcastInDim S8192 ![] bcast_S_S8192 (constantI S_ 32 ew) (ix1 t))) = _
  rw [broadcastInDim_scalar_apply]
  exact Cert.Moe.uitofp_cmpi_eq _ _

theorem weightBroadcast_apply (idx : IVec S8192 32) (ew : BitVec 32) (t : Fin 8192) (k : Fin 1024) :
    broadcastInDim S8192x1024 ![0, 1] bcast_S8192x1_S8192x1024_0_1 (weightColumn idx ew) (ix2 t k) = Cert.Moe.onExpert (idx (ix1 t)) ew := by
  rw [Cert.HostMean.broadcastInDim_a1_ab_apply _ bcast_S8192x1_S8192x1024_0_1 t k]
  exact weightColumn_apply idx ew t

theorem inMatrix_apply (W : FVec Ideal S8x2816x1024 .f32) (e : Fin 8) (off : Fin 3 → ℕ) (hoff : off = ![e.val, 0, 0])
    (h : S8x2816x1024.Slices off S1x2816x1024) (k : Fin 1024) (i : Fin 2816) :
    inMatrix W off h (ix2 k i) = W (ix3 e i k) := by
  unfold inMatrix
  rw [transpose_ix2_apply _ transposes_S2816x1024_S1024x2816_1_0 k i, shapeCast_1ab_ab_apply _ shapeCasts_S1x2816x1024_S2816x1024 i k]
  subst hoff
  refine extractStridedSlice_apply _ W h _ (ix3 e i k) fun a => ?_
  match a with
  | ⟨0, _⟩ => show e.val = e.val + 0; omega
  | ⟨1, _⟩ => show i.val = 0 + i.val; omega
  | ⟨2, _⟩ => show k.val = 0 + k.val; omega

theorem outMatrix_apply (W : FVec Ideal S8x1024x2816 .f32) (e : Fin 8) (off : Fin 3 → ℕ) (hoff : off = ![e.val, 0, 0])
    (h : S8x1024x2816.Slices off S1x1024x2816) (i : Fin 2816) (q : Fin 1024) :
    outMatrix W off h (ix2 i q) = W (ix3 e q i) := by
  unfold outMatrix
  rw [transpose_ix2_apply _ transposes_S1024x2816_S2816x1024_1_0 i q, shapeCast_1ab_ab_apply _ shapeCasts_S1x1024x2816_S1024x2816 q i]
  subst hoff
  refine extractStridedSlice_apply _ W h _ (ix3 e q i) fun a => ?_
  match a with
  | ⟨0, _⟩ => show e.val = e.val + 0; omega
  | ⟨1, _⟩ => show q.val = 0 + q.val; omega
  | ⟨2, _⟩ => show i.val = 0 + i.val; omega

/-- The weighted tokens against an expert's transposed matrix: the specification's projection. -/
theorem product_apply (x : FVec Ideal S8192x1024 .f32) (idx : IVec S8192 32) (W : FVec Ideal S8x2816x1024 .f32) (e : Fin 8)
    (off : Fin 3 → ℕ) (hoff : off = ![e.val, 0, 0]) (h : S8x2816x1024.Slices off S1x2816x1024) (t : Fin 8192) (i : Fin 2816) :
    Host.dotGeneral (F := Ideal) dot_S8192x1024_S1024x2816_S8192x2816_1_0_0_1_n_n none (weighted x idx (Cert.Moe.word e)) (inMatrix W off h) (ix2 t i)
      = Cert.Moe.proj x idx W e t i := by
  refine (dotGeneral_apply plainIn none .single _ _ t i).trans ?_
  unfold Cert.Moe.proj Cert.Moe.row Cert.Moe.weight
  refine Finset.sum_congr rfl fun k _ => ?_
  rw [inMatrix_apply W e off hoff h k i]
  refine congrArg (· * W (ix3 e i k)) ?_
  show x (ix2 t k) * broadcastInDim S8192x1024 ![0, 1] bcast_S8192x1_S8192x1024_0_1 (weightColumn idx (Cert.Moe.word e)) (ix2 t k) = _
  rw [weightBroadcast_apply]

/-- The host's `silu` at an entry. -/
theorem hostSilu_apply (g : FVec Ideal S8192x2816 .f32) (j : S8192x2816.Idx) :
    hostSilu g j = g j * Ideal.logistic (g j) := by
  unfold hostSilu
  show g j * Ideal.div (broadcastInDim S8192x2816 ![] bcast_S_S8192x2816 (constant (F := Ideal) S_ .f32 0x3F800000#32) j)
      (broadcastInDim S8192x2816 ![] bcast_S_S8192x2816 (constant (F := Ideal) S_ .f32 0x3F800000#32) j + Ideal.exp (-(g j))) = _
  rw [Cert.HostMean.ones_apply bcast_S_S8192x2816 j]
  rfl

/-- ONE EXPERT'S BLOCK at `(t, h)` is the expert's weighted output. -/
theorem expertBlock_apply (x : FVec Ideal S8192x1024 .f32) (idx : IVec S8192 32) (Wg Wu : FVec Ideal S8x2816x1024 .f32)
    (Wd : FVec Ideal S8x1024x2816 .f32) (e : Fin 8) (off : Fin 3 → ℕ) (hoff : off = ![e.val, 0, 0])
    (hin : S8x2816x1024.Slices off S1x2816x1024) (hout : S8x1024x2816.Slices off S1x1024x2816) (t : Fin 8192) (h : Fin 1024) :
    expertBlock x idx Wg Wu Wd (Cert.Moe.word e) off hin hout (ix2 t h) = Cert.Moe.expertOut x idx Wg Wu Wd e t h := by
  unfold expertBlock Cert.Moe.expertOut Cert.Moe.weight
  refine (mulf_apply _ _ _).trans ?_
  refine congrArg₂ (· * ·) ?_ (weightBroadcast_apply idx _ t h)
  refine (dotGeneral_apply plainOut none .single _ _ t h).trans ?_
  refine Finset.sum_congr rfl fun i _ => ?_
  rw [outMatrix_apply Wd e off hoff hout i h]
  refine congrArg (· * Wd (ix3 e h i)) ?_
  unfold Cert.Moe.hidden
  refine (mulf_apply _ _ _).trans ?_
  rw [hostSilu_apply, product_apply x idx Wg e off hoff hin t i, product_apply x idx Wu e off hoff hin t i]

end Cert.Moe.Ref

end
-- ==== Proof.RefRun.lean ====
/-
  The reference program's run.

  Its @main is a straight line of 258 host operations — for each of the eight experts the routing-weight column, the
  weighted tokens, the three sliced and transposed matrices, the two projections, `silu` (the called function's nine
  operations stand at each call), the hidden values, the output product, the weighting and the addition into the
  running result, which starts as a broadcast zero.  Every weakly fair execution terminates with the result buffer
  holding the eight experts' blocks added in turn onto that zero, each block a function of the five arguments, and
  with the arguments unchanged.
-/
import proofs.«148586_j15427522527439_1_alg».proof.Proof.Gen.ReferenceIdeal
import proofs.«148586_j15427522527439_1_alg».proof.Proof.RefExpert
import Idealize.ShloMosaic.Lib.StableHlo.Run

noncomputable section

namespace Cert.Moe.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's operations in order; the operations of the called `silu` stand in place of each of its eight calls. -/
abbrev ops : List (HloOp τ sig (Elt F)) :=
  [ nullary main_cst (constant S_ .f32 0x00000000#32),
    unary main_cst main_v0 (broadcastInDim S8192x1024 ![] bcast_S_S8192x1024 : (⟨S_, .f32⟩ : BufTy).Contents (Elt F) → (⟨S8192x1024, .f32⟩ : BufTy).Contents (Elt F)),
    nullary main_c (constantI S_ 32 0#32),
    unary main_c main_v1 (broadcastInDim S8192 ![] bcast_S_S8192 : (⟨S_, .i32⟩ : BufTy).Contents (Elt F) → (⟨S8192, .i32⟩ : BufTy).Contents (Elt F)),
    binary main_arg1 main_v1 main_v2 (cmpi .eq : (⟨S8192, .i32⟩ : BufTy).Contents (Elt F) → (⟨S8192, .i32⟩ : BufTy).Contents (Elt F) → (⟨S8192, .i1⟩ : BufTy).Contents (Elt F)),
    unary main_v2 main_v3 (uitofp .f32 : (⟨S8192, .i1⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    unary main_v4 main_v5 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v5 main_v6 (mulf : (⟨S8192x1024, .f32⟩ : BufTy).Contents (Elt F) → (⟨S8192x1024, .f32⟩ : BufTy).Contents (Elt F) → (⟨S8192x1024, .f32⟩ : BufTy).Contents (Elt F)),
    unary main_arg2 main_v7 ((extractStridedSlice S1x2816x1024 ![0, 0, 0] · slices_S8x2816x1024_S1x2816x1024_0_0_0) : (⟨S8x2816x1024, .f32⟩ : BufTy).Contents (Elt F) → (⟨S1x2816x1024, .f32⟩ : BufTy).Contents (Elt F)),
    reshape main_v7 main_v8 rfl shapeCasts_S1x2816x1024_S2816x1024,
    unary main_v8 main_v9 ((transpose S1024x2816 [1, 0] · transposes_S2816x1024_S1024x2816_1_0) : (⟨S2816x1024, .f32⟩ : BufTy).Contents (Elt F) → (⟨S1024x2816, .f32⟩ : BufTy).Contents (Elt F)),
    binary main_v6 main_v9 main_v10 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v10) (TRef.of (T := ⟨S8192x2816, .f32⟩) main_call0_v0) Host.negf,
    TRef.unary (TRef.of (T := ⟨S8192x2816, .f32⟩) main_call0_v0) (TRef.of (T := ⟨S8192x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8192x2816, .f32⟩) main_call0_v2) (broadcastInDim S8192x2816 ![] bcast_S_S8192x2816),
    TRef.binary (TRef.of (T := ⟨S8192x2816, .f32⟩) main_call0_v2) (TRef.of (T := ⟨S8192x2816, .f32⟩) main_call0_v1) (TRef.of (T := ⟨S8192x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8192x2816, .f32⟩) main_call0_v4) (broadcastInDim S8192x2816 ![] bcast_S_S8192x2816),
    TRef.binary (TRef.of (T := ⟨S8192x2816, .f32⟩) main_call0_v4) (TRef.of (T := ⟨S8192x2816, .f32⟩) main_call0_v3) (TRef.of (T := ⟨S8192x2816, .f32⟩) main_call0_v5) Host.divf,
    TRef.binary (TRef.of (T := ⟨S8192x2816, .f32⟩) main_v10) (TRef.of (T := ⟨S8192x2816, .f32⟩) main_call0_v5) (TRef.of (T := ⟨S8192x2816, .f32⟩) main_v11) mulf,
    unary main_arg3 main_v12 ((extractStridedSlice S1x2816x1024 ![0, 0, 0] · slices_S8x2816x1024_S1x2816x1024_0_0_0) : (⟨S8x2816x1024, .f32⟩ : BufTy).Contents (Elt F) → (⟨S1x2816x1024, .f32⟩ : BufTy).Contents (Elt F)),
    reshape main_v12 main_v13 rfl shapeCasts_S1x2816x1024_S2816x1024,
    unary main_v13 main_v14 ((transpose S1024x2816 [1, 0] · transposes_S2816x1024_S1024x2816_1_0) : (⟨S2816x1024, .f32⟩ : BufTy).Contents (Elt F) → (⟨S1024x2816, .f32⟩ : BufTy).Contents (Elt F)),
    binary main_v6 main_v14 main_v15 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v11 main_v15 main_v16 (mulf : (⟨S8192x2816, .f32⟩ : BufTy).Contents (Elt F) → (⟨S8192x2816, .f32⟩ : BufTy).Contents (Elt F) → (⟨S8192x2816, .f32⟩ : BufTy).Contents (Elt F)),
    unary main_arg4 main_v17 ((extractStridedSlice S1x1024x2816 ![0, 0, 0] · slices_S8x1024x2816_S1x1024x2816_0_0_0) : (⟨S8x1024x2816, .f32⟩ : BufTy).Contents (Elt F) → (⟨S1x1024x2816, .f32⟩ : BufTy).Contents (Elt F)),
    reshape main_v17 main_v18 rfl shapeCasts_S1x1024x2816_S1024x2816,
    unary main_v18 main_v19 ((transpose S2816x1024 [1, 0] · transposes_S1024x2816_S2816x1024_1_0) : (⟨S1024x2816, .f32⟩ : BufTy).Contents (Elt F) → (⟨S2816x1024, .f32⟩ : BufTy).Contents (Elt F)),
    binary main_v16 main_v19 main_v20 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v4 main_v21 (broadcastInDim S8192x1024 ![0, 1] bcast_S8192x1_S8192x1024_0_1 : (⟨S8192x1, .f32⟩ : BufTy).Contents (Elt F) → (⟨S8192x1024, .f32⟩ : BufTy).Contents (Elt F)),
    binary main_v20 main_v21 main_v22 (mulf : (⟨S8192x1024, .f32⟩ : BufTy).Contents (Elt F) → (⟨S8192x1024, .f32⟩ : BufTy).Contents (Elt F) → (⟨S8192x1024, .f32⟩ : BufTy).Contents (Elt F)),
    binary main_v0 main_v22 main_v23 (addf : (⟨S8192x1024, .f32⟩ : BufTy).Contents (Elt F) → (⟨S8192x1024, .f32⟩ : BufTy).Contents (Elt F) → (⟨S8192x1024, .f32⟩ : BufTy).Contents (Elt F)),
    nullary main_c_0 (constantI S_ 32 1#32),
    unary main_c_0 main_v24 (broadcastInDim S8192 ![] bcast_S_S8192 : (⟨S_, .i32⟩ : BufTy).Contents (Elt F) → (⟨S8192, .i32⟩ : BufTy).Contents (Elt F)),
    binary main_arg1 main_v24 main_v25 (cmpi .eq : (⟨S8192, .i32⟩ : BufTy).Contents (Elt F) → (⟨S8192, .i32⟩ : BufTy).Contents (Elt F) → (⟨S8192, .i1⟩ : BufTy).Contents (Elt F)),
    unary main_v25 main_v26 (uitofp .f32 : (⟨S8192, .i1⟩ : BufTy).Contents (Elt F) → (⟨S8192, .f32⟩ : BufTy).Contents (Elt F)),
    unary main_v26 main_v27 (broadcastInDim S8192x1 ![0] bcast_S8192_S8192x1_0 : (⟨S8192, .f32⟩ : BufTy).Contents (Elt F) → (⟨S8192x1, .f32⟩ : BufTy).Contents (Elt F)),
    unary main_v27 main_v28 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v28 main_v29 (mulf : (⟨S8192x1024, .f32⟩ : BufTy).Contents (Elt F) → (⟨S8192x1024, .f32⟩ : BufTy).Contents (Elt F) → (⟨S8192x1024, .f32⟩ : BufTy).Contents (Elt F)),
    unary main_arg2 main_v30 ((extractStridedSlice S1x2816x1024 ![1, 0, 0] · slices_S8x2816x1024_S1x2816x1024_1_0_0) : (⟨S8x2816x1024, .f32⟩ : BufTy).Contents (Elt F) → (⟨S1x2816x1024, .f32⟩ : BufTy).Contents (Elt F)),
    reshape main_v30 main_v31 rfl shapeCasts_S1x2816x1024_S2816x1024,
    unary main_v31 main_v32 ((transpose S1024x2816 [1, 0] · transposes_S2816x1024_S1024x2816_1_0) : (⟨S2816x1024, .f32⟩ : BufTy).Contents (Elt F) → (⟨S1024x2816, .f32⟩ : BufTy).Contents (Elt F)),
    binary main_v29 main_v32 main_v33 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v33) (TRef.of (T := ⟨S8192x2816, .f32⟩) main_call1_v0) Host.negf,
    TRef.unary (TRef.of (T := ⟨S8192x2816, .f32⟩) main_call1_v0) (TRef.of (T := ⟨S8192x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8192x2816, .f32⟩) main_call1_v2) (broadcastInDim S8192x2816 ![] bcast_S_S8192x2816),
    TRef.binary (TRef.of (T := ⟨S8192x2816, .f32⟩) main_call1_v2) (TRef.of (T := ⟨S8192x2816, .f32⟩) main_call1_v1) (TRef.of (T := ⟨S8192x2816, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8192x2816, .f32⟩) main_call1_v4) (broadcastInDim S8192x2816 ![] bcast_S_S8192x2816),
    TRef.binary (TRef.of (T := ⟨S8192x2816, .f32⟩) main_call1_v4) (TRef.of (T := ⟨S8192x2816, .f32⟩) main_call1_v3) (TRef.of (T := ⟨S8192x2816, .f32⟩) main_call1_v5) Host.divf,
    TRef.binary (TRef.of (T := ⟨S8192x2816, .f32⟩) main_v33) (TRef.of (T := ⟨S8192x2816, .f32⟩) main_call1_v5) (TRef.of (T := ⟨S8192x2816, .f32⟩) main_v34) mulf,
    unary main_arg3 main_v35 ((extractStridedSlice S1x2816x1024 ![1, 0, 0] · slices_S8x2816x1024_S1x2816x1024_1_0_0) : (⟨S8x2816x1024, .f32⟩ : BufTy).Contents (Elt F) → (⟨S1x2816x1024, .f32⟩ : BufTy).Contents (Elt F)),
    reshape main_v35 main_v36 rfl shapeCasts_S1x2816x1024_S2816x1024,
    unary main_v36 main_v37 ((transpose S1024x2816 [1, 0] · transposes_S2816x1024_S1024x2816_1_0) : (⟨S2816x1024, .f32⟩ : BufTy).Contents (Elt F) → (⟨S1024x2816, .f32⟩ : BufTy).Contents (Elt F)),
    binary main_v29 main_v37 main_v38 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v34 main_v38 main_v39 (mulf : (⟨S8192x2816, .f32⟩ : BufTy).Contents (Elt F) → (⟨S8192x2816, .f32⟩ : BufTy).Contents (Elt F) → (⟨S8192x2816, .f32⟩ : BufTy).Contents (Elt F)),
    unary main_arg4 main_v40 ((extractStridedSlice S1x1024x2816 ![1, 0, 0] · slices_S8x1024x2816_S1x1024x2816_1_0_0) : (⟨S8x1024x2816, .f32⟩ : BufTy).Contents (Elt F) → (⟨S1x1024x2816, .f32⟩ : BufTy).Contents (Elt F)),
    reshape main_v40 main_v41 rfl shapeCasts_S1x1024x2816_S1024x2816,
    unary main_v41 main_v42 ((transpose S2816x1024 [1, 0] · transposes_S1024x2816_S2816x1024_1_0) : (⟨S1024x2816, .f32⟩ : BufTy).Contents (Elt F) → (⟨S2816x1024, .f32⟩ : BufTy).Contents (Elt F)),
    binary main_v39 main_v42 main_v43 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v27 main_v44 (broadcastInDim S8192x1024 ![0, 1] bcast_S8192x1_S8192x1024_0_1 : (⟨S8192x1, .f32⟩ : BufTy).Contents (Elt F) → (⟨S8192x1024, .f32⟩ : BufTy).Contents (Elt F)),
    binary main_v43 main_v44 main_v45 (mulf : (⟨S8192x1024, .f32⟩ : BufTy).Contents (Elt F) → (⟨S8192x1024, .f32⟩ : BufTy).Contents (Elt F) → (⟨S8192x1024, .f32⟩ : BufTy).Contents (Elt F)),
    binary main_v23 main_v45 main_v46 (addf : (⟨S8192x1024, .f32⟩ : BufTy).Contents (Elt F) → (⟨S8192x1024, .f32⟩ : BufTy).Contents (Elt F) → (⟨S8192x1024, .f32⟩ : BufTy).Contents (Elt F)),
    nullary main_c_1 (constantI S_ 32 2#32),
    unary main_c_1 main_v47 (broadcastInDim S8192 ![] bcast_S_S8192 : (⟨S_, .i32⟩ : BufTy).Contents (Elt F) → (⟨S8192, .i32⟩ : BufTy).Contents (Elt F)),
    binary main_arg1 main_v47 main_v48 (cmpi .eq : (⟨S8192, .i32⟩ : BufTy).Contents (Elt F) → (⟨S8192, .i32⟩ : BufTy).Contents (Elt F) → (⟨S8192, .i1⟩ : BufTy).Contents (Elt F)),
    unary main_v48 main_v49 (uitofp .f32 : (⟨S8192, .i1⟩ : BufTy).Contents (Elt F) → (⟨S8192, .f32⟩ : BufTy).Contents (Elt F)),
    unary main_v49 main_v50 (broadcastInDim S8192x1 ![0] bcast_S8192_S8192x1_0 : (⟨S8192, .f32⟩ : BufTy).Contents (Elt F) → (⟨S8192x1, .f32⟩ : BufTy).Contents (Elt F)),
    unary main_v50 main_v51 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v51 main_v52 (mulf : (⟨S8192x1024, .f32⟩ : BufTy).Contents (Elt F) → (⟨S8192x1024, .f32⟩ : BufTy).Contents (Elt F) → (⟨S8192x1024, .f32⟩ : BufTy).Contents (Elt F)),
    unary main_arg2 main_v53 ((extractStridedSlice S1x2816x1024 ![2, 0, 0] · slices_S8x2816x1024_S1x2816x1024_2_0_0) : (⟨S8x2816x1024, .f32⟩ : BufTy).Contents (Elt F) → (⟨S1x2816x1024, .f32⟩ : BufTy).Contents (Elt F)),
    reshape main_v53 main_v54 rfl shapeCasts_S1x2816x1024_S2816x1024,
    unary main_v54 main_v55 ((transpose S1024x2816 [1, 0] · transposes_S2816x1024_S1024x2816_1_0) : (⟨S2816x1024, .f32⟩ : BufTy).Contents (Elt F) → (⟨S1024x2816, .f32⟩ : BufTy).Contents (Elt F)),
    binary main_v52 main_v55 main_v56 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v56) (TRef.of (T := ⟨S8192x2816, .f32⟩) main_call2_v0) Host.negf,
    TRef.unary (TRef.of (T := ⟨S8192x2816, .f32⟩) main_call2_v0) (TRef.of (T := ⟨S8192x2816, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S8192x2816, .f32⟩) main_call2_v2) (broadcastInDim S8192x2816 ![] bcast_S_S8192x2816),
    TRef.binary (TRef.of (T := ⟨S8192x2816, .f32⟩) main_call2_v2) (TRef.of (T := ⟨S8192x2816, .f32⟩) main_call2_v1) (TRef.of (T := ⟨S8192x2816, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S8192x2816, .f32⟩) main_call2_v4) (broadcastInDim S8192x2816 ![] bcast_S_S8192x2816),
    TRef.binary (TRef.of (T := ⟨S8192x2816, .f32⟩) main_call2_v4) (TRef.of (T := ⟨S8192x2816, .f32⟩) main_call2_v3) (TRef.of (T := ⟨S8192x2816, .f32⟩) main_call2_v5) Host.divf,
    TRef.binary (TRef.of (T := ⟨S8192x2816, .f32⟩) main_v56) (TRef.of (T := ⟨S8192x2816, .f32⟩) main_call2_v5) (TRef.of (T := ⟨S8192x2816, .f32⟩) main_v57) mulf,
    unary main_arg3 main_v58 ((extractStridedSlice S1x2816x1024 ![2, 0, 0] · slices_S8x2816x1024_S1x2816x1024_2_0_0) : (⟨S8x2816x1024, .f32⟩ : BufTy).Contents (Elt F) → (⟨S1x2816x1024, .f32⟩ : BufTy).Contents (Elt F)),
    reshape main_v58 main_v59 rfl shapeCasts_S1x2816x1024_S2816x1024,
    unary main_v59 main_v60 ((transpose S1024x2816 [1, 0] · transposes_S2816x1024_S1024x2816_1_0) : (⟨S2816x1024, .f32⟩ : BufTy).Contents (Elt F) → (⟨S1024x2816, .f32⟩ : BufTy).Contents (Elt F)),
    binary main_v52 main_v60 main_v61 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v57 main_v61 main_v62 (mulf : (⟨S8192x2816, .f32⟩ : BufTy).Contents (Elt F) → (⟨S8192x2816, .f32⟩ : BufTy).Contents (Elt F) → (⟨S8192x2816, .f32⟩ : BufTy).Contents (Elt F)),
    unary main_arg4 main_v63 ((extractStridedSlice S1x1024x2816 ![2, 0, 0] · slices_S8x1024x2816_S1x1024x2816_2_0_0) : (⟨S8x1024x2816, .f32⟩ : BufTy).Contents (Elt F) → (⟨S1x1024x2816, .f32⟩ : BufTy).Contents (Elt F)),
    reshape main_v63 main_v64 rfl shapeCasts_S1x1024x2816_S1024x2816,
    unary main_v64 main_v65 ((transpose S2816x1024 [1, 0] · transposes_S1024x2816_S2816x1024_1_0) : (⟨S1024x2816, .f32⟩ : BufTy).Contents (Elt F) → (⟨S2816x1024, .f32⟩ : BufTy).Contents (Elt F)),
    binary main_v62 main_v65 main_v66 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v50 main_v67 (broadcastInDim S8192x1024 ![0, 1] bcast_S8192x1_S8192x1024_0_1 : (⟨S8192x1, .f32⟩ : BufTy).Contents (Elt F) → (⟨S8192x1024, .f32⟩ : BufTy).Contents (Elt F)),
    binary main_v66 main_v67 main_v68 (mulf : (⟨S8192x1024, .f32⟩ : BufTy).Contents (Elt F) → (⟨S8192x1024, .f32⟩ : BufTy).Contents (Elt F) → (⟨S8192x1024, .f32⟩ : BufTy).Contents (Elt F)),
    binary main_v46 main_v68 main_v69 (addf : (⟨S8192x1024, .f32⟩ : BufTy).Contents (Elt F) → (⟨S8192x1024, .f32⟩ : BufTy).Contents (Elt F) → (⟨S8192x1024, .f32⟩ : BufTy).Contents (Elt F)),
    nullary main_c_2 (constantI S_ 32 3#32),
    unary main_c_2 main_v70 (broadcastInDim S8192 ![] bcast_S_S8192 : (⟨S_, .i32⟩ : BufTy).Contents (Elt F) → (⟨S8192, .i32⟩ : BufTy).Contents (Elt F)),
    binary main_arg1 main_v70 main_v71 (cmpi .eq : (⟨S8192, .i32⟩ : BufTy).Contents (Elt F) → (⟨S8192, .i32⟩ : BufTy).Contents (Elt F) → (⟨S8192, .i1⟩ : BufTy).Contents (Elt F)),
    unary main_v71 main_v72 (uitofp .f32 : (⟨S8192, .i1⟩ : BufTy).Contents (Elt F) → (⟨S8192, .f32⟩ : BufTy).Contents (Elt F)),
    unary main_v72 main_v73 (broadcastInDim S8192x1 ![0] bcast_S8192_S8192x1_0 : (⟨S8192, .f32⟩ : BufTy).Contents (Elt F) → (⟨S8192x1, .f32⟩ : BufTy).Contents (Elt F)),
    unary main_v73 main_v74 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v74 main_v75 (mulf : (⟨S8192x1024, .f32⟩ : BufTy).Contents (Elt F) → (⟨S8192x1024, .f32⟩ : BufTy).Contents (Elt F) → (⟨S8192x1024, .f32⟩ : BufTy).Contents (Elt F)),
    unary main_arg2 main_v76 ((extractStridedSlice S1x2816x1024 ![3, 0, 0] · slices_S8x2816x1024_S1x2816x1024_3_0_0) : (⟨S8x2816x1024, .f32⟩ : BufTy).Contents (Elt F) → (⟨S1x2816x1024, .f32⟩ : BufTy).Contents (Elt F)),
    reshape main_v76 main_v77 rfl shapeCasts_S1x2816x1024_S2816x1024,
    unary main_v77 main_v78 ((transpose S1024x2816 [1, 0] · transposes_S2816x1024_S1024x2816_1_0) : (⟨S2816x1024, .f32⟩ : BufTy).Contents (Elt F) → (⟨S1024x2816, .f32⟩ : BufTy).Contents (Elt F)),
    binary main_v75 main_v78 main_v79 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v79) (TRef.of (T := ⟨S8192x2816, .f32⟩) main_call3_v0) Host.negf,
    TRef.unary (TRef.of (T := ⟨S8192x2816, .f32⟩) main_call3_v0) (TRef.of (T := ⟨S8192x2816, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S8192x2816, .f32⟩) main_call3_v2) (broadcastInDim S8192x2816 ![] bcast_S_S8192x2816),
    TRef.binary (TRef.of (T := ⟨S8192x2816, .f32⟩) main_call3_v2) (TRef.of (T := ⟨S8192x2816, .f32⟩) main_call3_v1) (TRef.of (T := ⟨S8192x2816, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S8192x2816, .f32⟩) main_call3_v4) (broadcastInDim S8192x2816 ![] bcast_S_S8192x2816),
    TRef.binary (TRef.of (T := ⟨S8192x2816, .f32⟩) main_call3_v4) (TRef.of (T := ⟨S8192x2816, .f32⟩) main_call3_v3) (TRef.of (T := ⟨S8192x2816, .f32⟩) main_call3_v5) Host.divf,
    TRef.binary (TRef.of (T := ⟨S8192x2816, .f32⟩) main_v79) (TRef.of (T := ⟨S8192x2816, .f32⟩) main_call3_v5) (TRef.of (T := ⟨S8192x2816, .f32⟩) main_v80) mulf,
    unary main_arg3 main_v81 ((extractStridedSlice S1x2816x1024 ![3, 0, 0] · slices_S8x2816x1024_S1x2816x1024_3_0_0) : (⟨S8x2816x1024, .f32⟩ : BufTy).Contents (Elt F) → (⟨S1x2816x1024, .f32⟩ : BufTy).Contents (Elt F)),
    reshape main_v81 main_v82 rfl shapeCasts_S1x2816x1024_S2816x1024,
    unary main_v82 main_v83 ((transpose S1024x2816 [1, 0] · transposes_S2816x1024_S1024x2816_1_0) : (⟨S2816x1024, .f32⟩ : BufTy).Contents (Elt F) → (⟨S1024x2816, .f32⟩ : BufTy).Contents (Elt F)),
    binary main_v75 main_v83 main_v84 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v80 main_v84 main_v85 (mulf : (⟨S8192x2816, .f32⟩ : BufTy).Contents (Elt F) → (⟨S8192x2816, .f32⟩ : BufTy).Contents (Elt F) → (⟨S8192x2816, .f32⟩ : BufTy).Contents (Elt F)),
    unary main_arg4 main_v86 ((extractStridedSlice S1x1024x2816 ![3, 0, 0] · slices_S8x1024x2816_S1x1024x2816_3_0_0) : (⟨S8x1024x2816, .f32⟩ : BufTy).Contents (Elt F) → (⟨S1x1024x2816, .f32⟩ : BufTy).Contents (Elt F)),
    reshape main_v86 main_v87 rfl shapeCasts_S1x1024x2816_S1024x2816,
    unary main_v87 main_v88 ((transpose S2816x1024 [1, 0] · transposes_S1024x2816_S2816x1024_1_0) : (⟨S1024x2816, .f32⟩ : BufTy).Contents (Elt F) → (⟨S2816x1024, .f32⟩ : BufTy).Contents (Elt F)),
    binary main_v85 main_v88 main_v89 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v73 main_v90 (broadcastInDim S8192x1024 ![0, 1] bcast_S8192x1_S8192x1024_0_1 : (⟨S8192x1, .f32⟩ : BufTy).Contents (Elt F) → (⟨S8192x1024, .f32⟩ : BufTy).Contents (Elt F)),
    binary main_v89 main_v90 main_v91 (mulf : (⟨S8192x1024, .f32⟩ : BufTy).Contents (Elt F) → (⟨S8192x1024, .f32⟩ : BufTy).Contents (Elt F) → (⟨S8192x1024, .f32⟩ : BufTy).Contents (Elt F)),
    binary main_v69 main_v91 main_v92 (addf : (⟨S8192x1024, .f32⟩ : BufTy).Contents (Elt F) → (⟨S8192x1024, .f32⟩ : BufTy).Contents (Elt F) → (⟨S8192x1024, .f32⟩ : BufTy).Contents (Elt F)),
    nullary main_c_3 (constantI S_ 32 4#32),
    unary main_c_3 main_v93 (broadcastInDim S8192 ![] bcast_S_S8192 : (⟨S_, .i32⟩ : BufTy).Contents (Elt F) → (⟨S8192, .i32⟩ : BufTy).Contents (Elt F)),
    binary main_arg1 main_v93 main_v94 (cmpi .eq : (⟨S8192, .i32⟩ : BufTy).Contents (Elt F) → (⟨S8192, .i32⟩ : BufTy).Contents (Elt F) → (⟨S8192, .i1⟩ : BufTy).Contents (Elt F)),
    unary main_v94 main_v95 (uitofp .f32 : (⟨S8192, .i1⟩ : BufTy).Contents (Elt F) → (⟨S8192, .f32⟩ : BufTy).Contents (Elt F)),
    unary main_v95 main_v96 (broadcastInDim S8192x1 ![0] bcast_S8192_S8192x1_0 : (⟨S8192, .f32⟩ : BufTy).Contents (Elt F) → (⟨S8192x1, .f32⟩ : BufTy).Contents (Elt F)),
    unary main_v96 main_v97 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v97 main_v98 (mulf : (⟨S8192x1024, .f32⟩ : BufTy).Contents (Elt F) → (⟨S8192x1024, .f32⟩ : BufTy).Contents (Elt F) → (⟨S8192x1024, .f32⟩ : BufTy).Contents (Elt F)),
    unary main_arg2 main_v99 ((extractStridedSlice S1x2816x1024 ![4, 0, 0] · slices_S8x2816x1024_S1x2816x1024_4_0_0) : (⟨S8x2816x1024, .f32⟩ : BufTy).Contents (Elt F) → (⟨S1x2816x1024, .f32⟩ : BufTy).Contents (Elt F)),
    reshape main_v99 main_v100 rfl shapeCasts_S1x2816x1024_S2816x1024,
    unary main_v100 main_v101 ((transpose S1024x2816 [1, 0] · transposes_S2816x1024_S1024x2816_1_0) : (⟨S2816x1024, .f32⟩ : BufTy).Contents (Elt F) → (⟨S1024x2816, .f32⟩ : BufTy).Contents (Elt F)),
    binary main_v98 main_v101 main_v102 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v102) (TRef.of (T := ⟨S8192x2816, .f32⟩) main_call4_v0) Host.negf,
    TRef.unary (TRef.of (T := ⟨S8192x2816, .f32⟩) main_call4_v0) (TRef.of (T := ⟨S8192x2816, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S8192x2816, .f32⟩) main_call4_v2) (broadcastInDim S8192x2816 ![] bcast_S_S8192x2816),
    TRef.binary (TRef.of (T := ⟨S8192x2816, .f32⟩) main_call4_v2) (TRef.of (T := ⟨S8192x2816, .f32⟩) main_call4_v1) (TRef.of (T := ⟨S8192x2816, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S8192x2816, .f32⟩) main_call4_v4) (broadcastInDim S8192x2816 ![] bcast_S_S8192x2816),
    TRef.binary (TRef.of (T := ⟨S8192x2816, .f32⟩) main_call4_v4) (TRef.of (T := ⟨S8192x2816, .f32⟩) main_call4_v3) (TRef.of (T := ⟨S8192x2816, .f32⟩) main_call4_v5) Host.divf,
    TRef.binary (TRef.of (T := ⟨S8192x2816, .f32⟩) main_v102) (TRef.of (T := ⟨S8192x2816, .f32⟩) main_call4_v5) (TRef.of (T := ⟨S8192x2816, .f32⟩) main_v103) mulf,
    unary main_arg3 main_v104 ((extractStridedSlice S1x2816x1024 ![4, 0, 0] · slices_S8x2816x1024_S1x2816x1024_4_0_0) : (⟨S8x2816x1024, .f32⟩ : BufTy).Contents (Elt F) → (⟨S1x2816x1024, .f32⟩ : BufTy).Contents (Elt F)),
    reshape main_v104 main_v105 rfl shapeCasts_S1x2816x1024_S2816x1024,
    unary main_v105 main_v106 ((transpose S1024x2816 [1, 0] · transposes_S2816x1024_S1024x2816_1_0) : (⟨S2816x1024, .f32⟩ : BufTy).Contents (Elt F) → (⟨S1024x2816, .f32⟩ : BufTy).Contents (Elt F)),
    binary main_v98 main_v106 main_v107 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v103 main_v107 main_v108 (mulf : (⟨S8192x2816, .f32⟩ : BufTy).Contents (Elt F) → (⟨S8192x2816, .f32⟩ : BufTy).Contents (Elt F) → (⟨S8192x2816, .f32⟩ : BufTy).Contents (Elt F)),
    unary main_arg4 main_v109 ((extractStridedSlice S1x1024x2816 ![4, 0, 0] · slices_S8x1024x2816_S1x1024x2816_4_0_0) : (⟨S8x1024x2816, .f32⟩ : BufTy).Contents (Elt F) → (⟨S1x1024x2816, .f32⟩ : BufTy).Contents (Elt F)),
    reshape main_v109 main_v110 rfl shapeCasts_S1x1024x2816_S1024x2816,
    unary main_v110 main_v111 ((transpose S2816x1024 [1, 0] · transposes_S1024x2816_S2816x1024_1_0) : (⟨S1024x2816, .f32⟩ : BufTy).Contents (Elt F) → (⟨S2816x1024, .f32⟩ : BufTy).Contents (Elt F)),
    binary main_v108 main_v111 main_v112 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v96 main_v113 (broadcastInDim S8192x1024 ![0, 1] bcast_S8192x1_S8192x1024_0_1 : (⟨S8192x1, .f32⟩ : BufTy).Contents (Elt F) → (⟨S8192x1024, .f32⟩ : BufTy).Contents (Elt F)),
    binary main_v112 main_v113 main_v114 (mulf : (⟨S8192x1024, .f32⟩ : BufTy).Contents (Elt F) → (⟨S8192x1024, .f32⟩ : BufTy).Contents (Elt F) → (⟨S8192x1024, .f32⟩ : BufTy).Contents (Elt F)),
    binary main_v92 main_v114 main_v115 (addf : (⟨S8192x1024, .f32⟩ : BufTy).Contents (Elt F) → (⟨S8192x1024, .f32⟩ : BufTy).Contents (Elt F) → (⟨S8192x1024, .f32⟩ : BufTy).Contents (Elt F)),
    nullary main_c_4 (constantI S_ 32 5#32),
    unary main_c_4 main_v116 (broadcastInDim S8192 ![] bcast_S_S8192 : (⟨S_, .i32⟩ : BufTy).Contents (Elt F) → (⟨S8192, .i32⟩ : BufTy).Contents (Elt F)),
    binary main_arg1 main_v116 main_v117 (cmpi .eq : (⟨S8192, .i32⟩ : BufTy).Contents (Elt F) → (⟨S8192, .i32⟩ : BufTy).Contents (Elt F) → (⟨S8192, .i1⟩ : BufTy).Contents (Elt F)),
    unary main_v117 main_v118 (uitofp .f32 : (⟨S8192, .i1⟩ : BufTy).Contents (Elt F) → (⟨S8192, .f32⟩ : BufTy).Contents (Elt F)),
    unary main_v118 main_v119 (broadcastInDim S8192x1 ![0] bcast_S8192_S8192x1_0 : (⟨S8192, .f32⟩ : BufTy).Contents (Elt F) → (⟨S8192x1, .f32⟩ : BufTy).Contents (Elt F)),
    unary main_v119 main_v120 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v120 main_v121 (mulf : (⟨S8192x1024, .f32⟩ : BufTy).Contents (Elt F) → (⟨S8192x1024, .f32⟩ : BufTy).Contents (Elt F) → (⟨S8192x1024, .f32⟩ : BufTy).Contents (Elt F)),
    unary main_arg2 main_v122 ((extractStridedSlice S1x2816x1024 ![5, 0, 0] · slices_S8x2816x1024_S1x2816x1024_5_0_0) : (⟨S8x2816x1024, .f32⟩ : BufTy).Contents (Elt F) → (⟨S1x2816x1024, .f32⟩ : BufTy).Contents (Elt F)),
    reshape main_v122 main_v123 rfl shapeCasts_S1x2816x1024_S2816x1024,
    unary main_v123 main_v124 ((transpose S1024x2816 [1, 0] · transposes_S2816x1024_S1024x2816_1_0) : (⟨S2816x1024, .f32⟩ : BufTy).Contents (Elt F) → (⟨S1024x2816, .f32⟩ : BufTy).Contents (Elt F)),
    binary main_v121 main_v124 main_v125 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v125) (TRef.of (T := ⟨S8192x2816, .f32⟩) main_call5_v0) Host.negf,
    TRef.unary (TRef.of (T := ⟨S8192x2816, .f32⟩) main_call5_v0) (TRef.of (T := ⟨S8192x2816, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S8192x2816, .f32⟩) main_call5_v2) (broadcastInDim S8192x2816 ![] bcast_S_S8192x2816),
    TRef.binary (TRef.of (T := ⟨S8192x2816, .f32⟩) main_call5_v2) (TRef.of (T := ⟨S8192x2816, .f32⟩) main_call5_v1) (TRef.of (T := ⟨S8192x2816, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S8192x2816, .f32⟩) main_call5_v4) (broadcastInDim S8192x2816 ![] bcast_S_S8192x2816),
    TRef.binary (TRef.of (T := ⟨S8192x2816, .f32⟩) main_call5_v4) (TRef.of (T := ⟨S8192x2816, .f32⟩) main_call5_v3) (TRef.of (T := ⟨S8192x2816, .f32⟩) main_call5_v5) Host.divf,
    TRef.binary (TRef.of (T := ⟨S8192x2816, .f32⟩) main_v125) (TRef.of (T := ⟨S8192x2816, .f32⟩) main_call5_v5) (TRef.of (T := ⟨S8192x2816, .f32⟩) main_v126) mulf,
    unary main_arg3 main_v127 ((extractStridedSlice S1x2816x1024 ![5, 0, 0] · slices_S8x2816x1024_S1x2816x1024_5_0_0) : (⟨S8x2816x1024, .f32⟩ : BufTy).Contents (Elt F) → (⟨S1x2816x1024, .f32⟩ : BufTy).Contents (Elt F)),
    reshape main_v127 main_v128 rfl shapeCasts_S1x2816x1024_S2816x1024,
    unary main_v128 main_v129 ((transpose S1024x2816 [1, 0] · transposes_S2816x1024_S1024x2816_1_0) : (⟨S2816x1024, .f32⟩ : BufTy).Contents (Elt F) → (⟨S1024x2816, .f32⟩ : BufTy).Contents (Elt F)),
    binary main_v121 main_v129 main_v130 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v126 main_v130 main_v131 (mulf : (⟨S8192x2816, .f32⟩ : BufTy).Contents (Elt F) → (⟨S8192x2816, .f32⟩ : BufTy).Contents (Elt F) → (⟨S8192x2816, .f32⟩ : BufTy).Contents (Elt F)),
    unary main_arg4 main_v132 ((extractStridedSlice S1x1024x2816 ![5, 0, 0] · slices_S8x1024x2816_S1x1024x2816_5_0_0) : (⟨S8x1024x2816, .f32⟩ : BufTy).Contents (Elt F) → (⟨S1x1024x2816, .f32⟩ : BufTy).Contents (Elt F)),
    reshape main_v132 main_v133 rfl shapeCasts_S1x1024x2816_S1024x2816,
    unary main_v133 main_v134 ((transpose S2816x1024 [1, 0] · transposes_S1024x2816_S2816x1024_1_0) : (⟨S1024x2816, .f32⟩ : BufTy).Contents (Elt F) → (⟨S2816x1024, .f32⟩ : BufTy).Contents (Elt F)),
    binary main_v131 main_v134 main_v135 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v119 main_v136 (broadcastInDim S8192x1024 ![0, 1] bcast_S8192x1_S8192x1024_0_1 : (⟨S8192x1, .f32⟩ : BufTy).Contents (Elt F) → (⟨S8192x1024, .f32⟩ : BufTy).Contents (Elt F)),
    binary main_v135 main_v136 main_v137 (mulf : (⟨S8192x1024, .f32⟩ : BufTy).Contents (Elt F) → (⟨S8192x1024, .f32⟩ : BufTy).Contents (Elt F) → (⟨S8192x1024, .f32⟩ : BufTy).Contents (Elt F)),
    binary main_v115 main_v137 main_v138 (addf : (⟨S8192x1024, .f32⟩ : BufTy).Contents (Elt F) → (⟨S8192x1024, .f32⟩ : BufTy).Contents (Elt F) → (⟨S8192x1024, .f32⟩ : BufTy).Contents (Elt F)),
    nullary main_c_5 (constantI S_ 32 6#32),
    unary main_c_5 main_v139 (broadcastInDim S8192 ![] bcast_S_S8192 : (⟨S_, .i32⟩ : BufTy).Contents (Elt F) → (⟨S8192, .i32⟩ : BufTy).Contents (Elt F)),
    binary main_arg1 main_v139 main_v140 (cmpi .eq : (⟨S8192, .i32⟩ : BufTy).Contents (Elt F) → (⟨S8192, .i32⟩ : BufTy).Contents (Elt F) → (⟨S8192, .i1⟩ : BufTy).Contents (Elt F)),
    unary main_v140 main_v141 (uitofp .f32 : (⟨S8192, .i1⟩ : BufTy).Contents (Elt F) → (⟨S8192, .f32⟩ : BufTy).Contents (Elt F)),
    unary main_v141 main_v142 (broadcastInDim S8192x1 ![0] bcast_S8192_S8192x1_0 : (⟨S8192, .f32⟩ : BufTy).Contents (Elt F) → (⟨S8192x1, .f32⟩ : BufTy).Contents (Elt F)),
    unary main_v142 main_v143 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v143 main_v144 (mulf : (⟨S8192x1024, .f32⟩ : BufTy).Contents (Elt F) → (⟨S8192x1024, .f32⟩ : BufTy).Contents (Elt F) → (⟨S8192x1024, .f32⟩ : BufTy).Contents (Elt F)),
    unary main_arg2 main_v145 ((extractStridedSlice S1x2816x1024 ![6, 0, 0] · slices_S8x2816x1024_S1x2816x1024_6_0_0) : (⟨S8x2816x1024, .f32⟩ : BufTy).Contents (Elt F) → (⟨S1x2816x1024, .f32⟩ : BufTy).Contents (Elt F)),
    reshape main_v145 main_v146 rfl shapeCasts_S1x2816x1024_S2816x1024,
    unary main_v146 main_v147 ((transpose S1024x2816 [1, 0] · transposes_S2816x1024_S1024x2816_1_0) : (⟨S2816x1024, .f32⟩ : BufTy).Contents (Elt F) → (⟨S1024x2816, .f32⟩ : BufTy).Contents (Elt F)),
    binary main_v144 main_v147 main_v148 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v148) (TRef.of (T := ⟨S8192x2816, .f32⟩) main_call6_v0) Host.negf,
    TRef.unary (TRef.of (T := ⟨S8192x2816, .f32⟩) main_call6_v0) (TRef.of (T := ⟨S8192x2816, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S8192x2816, .f32⟩) main_call6_v2) (broadcastInDim S8192x2816 ![] bcast_S_S8192x2816),
    TRef.binary (TRef.of (T := ⟨S8192x2816, .f32⟩) main_call6_v2) (TRef.of (T := ⟨S8192x2816, .f32⟩) main_call6_v1) (TRef.of (T := ⟨S8192x2816, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S8192x2816, .f32⟩) main_call6_v4) (broadcastInDim S8192x2816 ![] bcast_S_S8192x2816),
    TRef.binary (TRef.of (T := ⟨S8192x2816, .f32⟩) main_call6_v4) (TRef.of (T := ⟨S8192x2816, .f32⟩) main_call6_v3) (TRef.of (T := ⟨S8192x2816, .f32⟩) main_call6_v5) Host.divf,
    TRef.binary (TRef.of (T := ⟨S8192x2816, .f32⟩) main_v148) (TRef.of (T := ⟨S8192x2816, .f32⟩) main_call6_v5) (TRef.of (T := ⟨S8192x2816, .f32⟩) main_v149) mulf,
    unary main_arg3 main_v150 ((extractStridedSlice S1x2816x1024 ![6, 0, 0] · slices_S8x2816x1024_S1x2816x1024_6_0_0) : (⟨S8x2816x1024, .f32⟩ : BufTy).Contents (Elt F) → (⟨S1x2816x1024, .f32⟩ : BufTy).Contents (Elt F)),
    reshape main_v150 main_v151 rfl shapeCasts_S1x2816x1024_S2816x1024,
    unary main_v151 main_v152 ((transpose S1024x2816 [1, 0] · transposes_S2816x1024_S1024x2816_1_0) : (⟨S2816x1024, .f32⟩ : BufTy).Contents (Elt F) → (⟨S1024x2816, .f32⟩ : BufTy).Contents (Elt F)),
    binary main_v144 main_v152 main_v153 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v149 main_v153 main_v154 (mulf : (⟨S8192x2816, .f32⟩ : BufTy).Contents (Elt F) → (⟨S8192x2816, .f32⟩ : BufTy).Contents (Elt F) → (⟨S8192x2816, .f32⟩ : BufTy).Contents (Elt F)),
    unary main_arg4 main_v155 ((extractStridedSlice S1x1024x2816 ![6, 0, 0] · slices_S8x1024x2816_S1x1024x2816_6_0_0) : (⟨S8x1024x2816, .f32⟩ : BufTy).Contents (Elt F) → (⟨S1x1024x2816, .f32⟩ : BufTy).Contents (Elt F)),
    reshape main_v155 main_v156 rfl shapeCasts_S1x1024x2816_S1024x2816,
    unary main_v156 main_v157 ((transpose S2816x1024 [1, 0] · transposes_S1024x2816_S2816x1024_1_0) : (⟨S1024x2816, .f32⟩ : BufTy).Contents (Elt F) → (⟨S2816x1024, .f32⟩ : BufTy).Contents (Elt F)),
    binary main_v154 main_v157 main_v158 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v142 main_v159 (broadcastInDim S8192x1024 ![0, 1] bcast_S8192x1_S8192x1024_0_1 : (⟨S8192x1, .f32⟩ : BufTy).Contents (Elt F) → (⟨S8192x1024, .f32⟩ : BufTy).Contents (Elt F)),
    binary main_v158 main_v159 main_v160 (mulf : (⟨S8192x1024, .f32⟩ : BufTy).Contents (Elt F) → (⟨S8192x1024, .f32⟩ : BufTy).Contents (Elt F) → (⟨S8192x1024, .f32⟩ : BufTy).Contents (Elt F)),
    binary main_v138 main_v160 main_v161 (addf : (⟨S8192x1024, .f32⟩ : BufTy).Contents (Elt F) → (⟨S8192x1024, .f32⟩ : BufTy).Contents (Elt F) → (⟨S8192x1024, .f32⟩ : BufTy).Contents (Elt F)),
    nullary main_c_6 (constantI S_ 32 7#32),
    unary main_c_6 main_v162 (broadcastInDim S8192 ![] bcast_S_S8192 : (⟨S_, .i32⟩ : BufTy).Contents (Elt F) → (⟨S8192, .i32⟩ : BufTy).Contents (Elt F)),
    binary main_arg1 main_v162 main_v163 (cmpi .eq : (⟨S8192, .i32⟩ : BufTy).Contents (Elt F) → (⟨S8192, .i32⟩ : BufTy).Contents (Elt F) → (⟨S8192, .i1⟩ : BufTy).Contents (Elt F)),
    unary main_v163 main_v164 (uitofp .f32 : (⟨S8192, .i1⟩ : BufTy).Contents (Elt F) → (⟨S8192, .f32⟩ : BufTy).Contents (Elt F)),
    unary main_v164 main_v165 (broadcastInDim S8192x1 ![0] bcast_S8192_S8192x1_0 : (⟨S8192, .f32⟩ : BufTy).Contents (Elt F) → (⟨S8192x1, .f32⟩ : BufTy).Contents (Elt F)),
    unary main_v165 main_v166 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v166 main_v167 (mulf : (⟨S8192x1024, .f32⟩ : BufTy).Contents (Elt F) → (⟨S8192x1024, .f32⟩ : BufTy).Contents (Elt F) → (⟨S8192x1024, .f32⟩ : BufTy).Contents (Elt F)),
    unary main_arg2 main_v168 ((extractStridedSlice S1x2816x1024 ![7, 0, 0] · slices_S8x2816x1024_S1x2816x1024_7_0_0) : (⟨S8x2816x1024, .f32⟩ : BufTy).Contents (Elt F) → (⟨S1x2816x1024, .f32⟩ : BufTy).Contents (Elt F)),
    reshape main_v168 main_v169 rfl shapeCasts_S1x2816x1024_S2816x1024,
    unary main_v169 main_v170 ((transpose S1024x2816 [1, 0] · transposes_S2816x1024_S1024x2816_1_0) : (⟨S2816x1024, .f32⟩ : BufTy).Contents (Elt F) → (⟨S1024x2816, .f32⟩ : BufTy).Contents (Elt F)),
    binary main_v167 main_v170 main_v171 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    TRef.unary (TRef.of (T := ⟨S8192x2816, .f32⟩) main_v171) (TRef.of (T := ⟨S8192x2816, .f32⟩) main_call7_v0) Host.negf,
    TRef.unary (TRef.of (T := ⟨S8192x2816, .f32⟩) main_call7_v0) (TRef.of (T := ⟨S8192x2816, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S8192x2816, .f32⟩) main_call7_v2) (broadcastInDim S8192x2816 ![] bcast_S_S8192x2816),
    TRef.binary (TRef.of (T := ⟨S8192x2816, .f32⟩) main_call7_v2) (TRef.of (T := ⟨S8192x2816, .f32⟩) main_call7_v1) (TRef.of (T := ⟨S8192x2816, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S8192x2816, .f32⟩) main_call7_v4) (broadcastInDim S8192x2816 ![] bcast_S_S8192x2816),
    TRef.binary (TRef.of (T := ⟨S8192x2816, .f32⟩) main_call7_v4) (TRef.of (T := ⟨S8192x2816, .f32⟩) main_call7_v3) (TRef.of (T := ⟨S8192x2816, .f32⟩) main_call7_v5) Host.divf,
    TRef.binary (TRef.of (T := ⟨S8192x2816, .f32⟩) main_v171) (TRef.of (T := ⟨S8192x2816, .f32⟩) main_call7_v5) (TRef.of (T := ⟨S8192x2816, .f32⟩) main_v172) mulf,
    unary main_arg3 main_v173 ((extractStridedSlice S1x2816x1024 ![7, 0, 0] · slices_S8x2816x1024_S1x2816x1024_7_0_0) : (⟨S8x2816x1024, .f32⟩ : BufTy).Contents (Elt F) → (⟨S1x2816x1024, .f32⟩ : BufTy).Contents (Elt F)),
    reshape main_v173 main_v174 rfl shapeCasts_S1x2816x1024_S2816x1024,
    unary main_v174 main_v175 ((transpose S1024x2816 [1, 0] · transposes_S2816x1024_S1024x2816_1_0) : (⟨S2816x1024, .f32⟩ : BufTy).Contents (Elt F) → (⟨S1024x2816, .f32⟩ : BufTy).Contents (Elt F)),
    binary main_v167 main_v175 main_v176 ((fun l r => Host.dotGeneral dot_S8192x1024_S1024x2816_S8192x2816_1_0_0_1_n_n none l r) : (⟨S8192x1024, .f32⟩ : BufTy).Contents (Elt F) → (⟨S1024x2816, .f32⟩ : BufTy).Contents (Elt F) → (⟨S8192x2816, .f32⟩ : BufTy).Contents (Elt F)),
    binary main_v172 main_v176 main_v177 (mulf : (⟨S8192x2816, .f32⟩ : BufTy).Contents (Elt F) → (⟨S8192x2816, .f32⟩ : BufTy).Contents (Elt F) → (⟨S8192x2816, .f32⟩ : BufTy).Contents (Elt F)),
    unary main_arg4 main_v178 ((extractStridedSlice S1x1024x2816 ![7, 0, 0] · slices_S8x1024x2816_S1x1024x2816_7_0_0) : (⟨S8x1024x2816, .f32⟩ : BufTy).Contents (Elt F) → (⟨S1x1024x2816, .f32⟩ : BufTy).Contents (Elt F)),
    reshape main_v178 main_v179 rfl shapeCasts_S1x1024x2816_S1024x2816,
    unary main_v179 main_v180 ((transpose S2816x1024 [1, 0] · transposes_S1024x2816_S2816x1024_1_0) : (⟨S1024x2816, .f32⟩ : BufTy).Contents (Elt F) → (⟨S2816x1024, .f32⟩ : BufTy).Contents (Elt F)),
    binary main_v177 main_v180 main_v181 ((fun l r => Host.dotGeneral dot_S8192x2816_S2816x1024_S8192x1024_1_0_0_1_n_n none l r) : (⟨S8192x2816, .f32⟩ : BufTy).Contents (Elt F) → (⟨S2816x1024, .f32⟩ : BufTy).Contents (Elt F) → (⟨S8192x1024, .f32⟩ : BufTy).Contents (Elt F)),
    unary main_v165 main_v182 (broadcastInDim S8192x1024 ![0, 1] bcast_S8192x1_S8192x1024_0_1 : (⟨S8192x1, .f32⟩ : BufTy).Contents (Elt F) → (⟨S8192x1024, .f32⟩ : BufTy).Contents (Elt F)),
    binary main_v181 main_v182 main_v183 (mulf : (⟨S8192x1024, .f32⟩ : BufTy).Contents (Elt F) → (⟨S8192x1024, .f32⟩ : BufTy).Contents (Elt F) → (⟨S8192x1024, .f32⟩ : BufTy).Contents (Elt F)),
    binary main_v161 main_v183 main_v184 (addf : (⟨S8192x1024, .f32⟩ : BufTy).Contents (Elt F) → (⟨S8192x1024, .f32⟩ : BufTy).Contents (Elt F) → (⟨S8192x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., binary_bufs_sub .., binary_bufs_sub ..⟩

/-- What the result buffer ends holding: the eight experts' blocks added in turn onto a broadcast zero. -/
def result (m : (ℓ : Loc nD τ sig) → Buf (Elt Ideal) ℓ) (c : Dev nD) : Buf (Elt Ideal) ((c.tc : Thread nD τ).loc main_v184) :=
  (addf (addf (addf (addf (addf (addf (addf (addf (broadcastInDim S8192x1024 ![] bcast_S_S8192x1024 (constant (F := Ideal) S_ .f32 0x00000000#32))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0#32 ![0, 0, 0] slices_S8x2816x1024_S1x2816x1024_0_0_0 slices_S8x1024x2816_S1x1024x2816_0_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 1#32 ![1, 0, 0] slices_S8x2816x1024_S1x2816x1024_1_0_0 slices_S8x1024x2816_S1x1024x2816_1_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2#32 ![2, 0, 0] slices_S8x2816x1024_S1x2816x1024_2_0_0 slices_S8x1024x2816_S1x1024x2816_2_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3#32 ![3, 0, 0] slices_S8x2816x1024_S1x2816x1024_3_0_0 slices_S8x1024x2816_S1x1024x2816_3_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 4#32 ![4, 0, 0] slices_S8x2816x1024_S1x2816x1024_4_0_0 slices_S8x1024x2816_S1x1024x2816_4_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5#32 ![5, 0, 0] slices_S8x2816x1024_S1x2816x1024_5_0_0 slices_S8x1024x2816_S1x1024x2816_5_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6#32 ![6, 0, 0] slices_S8x2816x1024_S1x2816x1024_6_0_0 slices_S8x1024x2816_S1x1024x2816_6_0_0))
    (Cert.Moe.Ref.expertBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 7#32 ![7, 0, 0] slices_S8x2816x1024_S1x2816x1024_7_0_0 slices_S8x1024x2816_S1x1024x2816_7_0_0))

set_option maxRecDepth 8192 in
set_option maxHeartbeats 103200000 in
/-- From any memory with zero counters every weakly fair execution of @main terminates with the result buffer at
    `result` and the five arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v184) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v184).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.Moe.RefRun

end
-- ==== Proof.RefValue.lean ====
/-
  The reference's result array is the layer: each of its eight blocks, read at an entry, is that expert's weighted
  output, the running result starts at zero, and the eight additions are the layer's sum written out.
-/
import proofs.«148586_j15427522527439_1_alg».proof.Proof.RefRun
import proofs.«148586_j15427522527439_1_alg».proof.Proof.MoeArray

noncomputable section

namespace Cert.Moe.RefValue

open Cert.ReferenceIdeal Cert.ReferenceIdeal.Gen Idealize.ShloMosaic Idealize.ShloMosaic.TcCoe Idealize.SL.Sem
open Idealize.ShloMosaic.ValueIdx

theorem result_eq (m : (ℓ : Loc nD τ sig) → Buf (Elt Ideal) ℓ) (c : Dev nD) :
    Cert.Moe.RefRun.result m c = Cert.Moe.layerArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨t, h, rfl⟩ : ∃ (t : Fin 8192) (h : Fin 1024), i = ix2 t h := ⟨i 0, i 1, eq_ix2 i⟩
  rw [Cert.Moe.layerArray_apply, Cert.Moe.layer_chain]
  have hz := Cert.HostMean.zeros_apply bcast_S_S8192x1024 (ix2 t h)
  have h0 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨0, by decide⟩ ![0, 0, 0] rfl
    slices_S8x2816x1024_S1x2816x1024_0_0_0 slices_S8x1024x2816_S1x1024x2816_0_0_0 t h
  have h1 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨1, by decide⟩ ![1, 0, 0] rfl
    slices_S8x2816x1024_S1x2816x1024_1_0_0 slices_S8x1024x2816_S1x1024x2816_1_0_0 t h
  have h2 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨2, by decide⟩ ![2, 0, 0] rfl
    slices_S8x2816x1024_S1x2816x1024_2_0_0 slices_S8x1024x2816_S1x1024x2816_2_0_0 t h
  have h3 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨3, by decide⟩ ![3, 0, 0] rfl
    slices_S8x2816x1024_S1x2816x1024_3_0_0 slices_S8x1024x2816_S1x1024x2816_3_0_0 t h
  have h4 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨4, by decide⟩ ![4, 0, 0] rfl
    slices_S8x2816x1024_S1x2816x1024_4_0_0 slices_S8x1024x2816_S1x1024x2816_4_0_0 t h
  have h5 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨5, by decide⟩ ![5, 0, 0] rfl
    slices_S8x2816x1024_S1x2816x1024_5_0_0 slices_S8x1024x2816_S1x1024x2816_5_0_0 t h
  have h6 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨6, by decide⟩ ![6, 0, 0] rfl
    slices_S8x2816x1024_S1x2816x1024_6_0_0 slices_S8x1024x2816_S1x1024x2816_6_0_0 t h
  have h7 := Cert.Moe.Ref.expertBlock_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨7, by decide⟩ ![7, 0, 0] rfl
    slices_S8x2816x1024_S1x2816x1024_7_0_0 slices_S8x1024x2816_S1x1024x2816_7_0_0 t h
  unfold Cert.Moe.RefRun.result
  exact congrArg₂ (· + ·) (congrArg₂ (· + ·) (congrArg₂ (· + ·) (congrArg₂ (· + ·) (congrArg₂ (· + ·) (congrArg₂ (· + ·)
    (congrArg₂ (· + ·) (congrArg₂ (· + ·) hz h0) h1) h2) h3) h4) h5) h6) h7

end Cert.Moe.RefValue

end
-- ==== Proof.lean ====
/-
  A masked mixture of experts: 8192 tokens of width 1024, one expert word per token, eight gated perceptrons of
  hidden width 2816.  The kernel walks a grid of (16 token tiles) × (8 experts) × (2 hidden tiles), keeping a token
  tile's output block in place over its sixteen points and adding at each point one hidden tile of one expert's
  output, already multiplied by the routing weight `[idx t = e]`; the reference adds the eight experts' whole outputs
  in turn, each multiplied by the routing weight once.

  Over the extended reals both are ONE function of the five arguments (`Cert.Moe.layerArray`): changes of float format
  are the identity, the three matrix products on either side are plain sums, `tpu.logistic` and the host's
  `1 / (1 + exp (−g))` are the same function, the kernel's transposed weight tiles are entries of the reference's
  transposed slices, a sum over 2816 hidden positions is the sum of its two tiles' sums, and multiplication by a routing
  weight distributes over that sum because the weight is one or zero (so no finiteness of the inputs is used).

  The word-level kernel's and the idealized kernel's frames are the generated frame and value run; the reference's frame
  and run are `Cert.Moe.RefRun.run`; the ideal pass rewrote nothing, so `preserves` is `True`.
-/
import proofs.«148586_j15427522527439_1_alg».proof.Defs
import proofs.«148586_j15427522527439_1_alg».proof.Proof.Gen.Kernel.Frame
import proofs.«148586_j15427522527439_1_alg».proof.Proof.Gen.KernelIdeal.Value
import proofs.«148586_j15427522527439_1_alg».proof.Proof.Gen.Pre_finite_inputs
import proofs.«148586_j15427522527439_1_alg».proof.Proof.KFold
import proofs.«148586_j15427522527439_1_alg».proof.Proof.RefValue
import Idealize.ShloMosaic.Adequacy
import Idealize.ShloMosaic.Init

noncomputable section

namespace Cert.Proof

open Idealize.ShloMosaic Idealize.SL.Sem Idealize.ShloMosaic.ValueIdx

/-- The idealized kernel runs and leaves its arguments unchanged: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The reference runs and leaves its arguments unchanged: its run, the result dropped. -/
theorem frame_ReferenceIdeal : frame_ReferenceIdeal := fun m ρ _ =>
  (θ_run Cert.ReferenceIdeal.defs _ _).mono (fun _ h c => (h c).2) (Cert.Moe.RefRun.run m ρ)

/-- From memories agreeing on the five arguments both programs end with the layer of those arguments. -/
theorem algebraic_KernelIdeal_ReferenceIdeal : algebraic_KernelIdeal_ReferenceIdeal := by
  intro m ρ m' ρ' _ hagree
  refine ⟨fun c => Cert.Moe.layerArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Value.run (F := Ideal) m ρ)
    funext i
    obtain ⟨t, q, rfl⟩ : ∃ (t : Fin 8192) (q : Fin 1024), i = ix2 t q := ⟨i 0, i 1, eq_ix2 i⟩
    exact Cert.Moe.Kernel.G5_apply m c t q
  · refine (θ_run Cert.ReferenceIdeal.defs _ _).mono (fun _ h c => ⟨(h c).1.trans ?_, (h c).2⟩)
      (Cert.Moe.RefRun.run m' ρ')
    rw [Cert.Moe.RefValue.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
